-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x64 : Shape := ⟨2, ![2048, 64]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S8x2048x2048 .f32) (main_arg1 : FVec F S2048x64 .f32) (main_arg2 : FVec F S2048x64 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  main_v13
-- ==== Kernel.lean ====
abbrev S8x2048x2048 : Shape := ⟨3, ![8, 2048, 2048]⟩
abbrev S2048x64 : Shape := ⟨2, ![2048, 64]⟩
abbrev S2048x128 : Shape := ⟨2, ![2048, 128]⟩
abbrev S_ : Shape := ⟨0, ![]⟩
abbrev S64x64 : Shape := ⟨2, ![64, 64]⟩
abbrev S64x128 : Shape := ⟨2, ![64, 128]⟩
abbrev S128x128 : Shape := ⟨2, ![128, 128]⟩
abbrev S128x2048 : Shape := ⟨2, ![128, 2048]⟩
abbrev S16384x2048 : Shape := ⟨2, ![16384, 2048]⟩
abbrev S1024x2048 : Shape := ⟨2, ![1024, 2048]⟩
abbrev S1024x128 : Shape := ⟨2, ![1024, 128]⟩

abbrev nBuf : Space → Nat
  | .hbm => 70
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S2048x64, .f32⟩
  | .hbm, ⟨2, _⟩ => ⟨S2048x64, .f32⟩
  | .hbm, ⟨3, _⟩ => ⟨S2048x128, .f32⟩
  | .hbm, ⟨4, _⟩ => ⟨S_, .f32⟩
  | .hbm, ⟨5, _⟩ => ⟨S64x64, .f32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S64x64, .f32⟩
  | .hbm, ⟨13, _⟩ => ⟨S64x128, .f32⟩
  | .hbm, ⟨14, _⟩ => ⟨S64x64, .f32⟩
  | .hbm, ⟨15, _⟩ => ⟨S64x128, .f32⟩
  | .hbm, ⟨16, _⟩ => ⟨S128x128, .f32⟩
  | .hbm, ⟨17, _⟩ => ⟨S128x2048, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S128x2048, .f32⟩
  | .hbm, ⟨67, _⟩ => ⟨S16384x2048, .f32⟩
  | .hbm, ⟨68, _⟩ => ⟨S16384x2048, .f32⟩
  | .hbm, ⟨69, _⟩ => ⟨S8x2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S128x128, .f32⟩
  | .local _ .vmem, ⟨4, _⟩ => ⟨S128x2048, .f32⟩
  | .local _ .vmem, ⟨5, _⟩ => ⟨S1024x2048, .f32⟩
  | .local _ .vmem, ⟨6, _⟩ => ⟨S1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S2048x64_S2048x64_S2048x128_d1 : Shape.Concatenates [S2048x64, S2048x64] S2048x128 1
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  transposes_S2048x128_S128x2048_1_0 : S2048x128.Transposes [1, 0] S128x2048
  bcast_S_S128x128 : S_.BroadcastsInDim S128x128 (![] : Fin 0 → Fin S128x128.rank)
  transposes_S128x128_S128x128_1_0 : S128x128.Transposes [1, 0] S128x128
  shapeCasts_S8x2048x2048_S16384x2048 : S8x2048x2048.ShapeCasts S16384x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  shapeCasts_S16384x2048_S8x2048x2048 : S16384x2048.ShapeCasts S8x2048x2048
  dot_S128x2048_S2048x128_S128x128_1_0_0_1_n_n_wf : DotDims.WF S128x2048 S2048x128 S128x128 [1] [0] [0] [1] [] []
  dot_S128x128_S128x128_S128x128_1_0_0_1_n_n_wf : DotDims.WF S128x128 S128x128 S128x128 [1] [0] [0] [1] [] []
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x2048.size a
  hwx0_3 : ∀ i : grid0.Coords, EltTy.bits .f32 = 32 ∨ (Rect.block (s := S128x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S16384x2048.size a
  hwx0_4 : ∀ i : grid0.Coords, EltTy.bits .f32 = 32 ∨ (Rect.block (s := S16384x2048) S1024x2048.size (cc0_transform_4 i) (hinb0_4 i)).WholeWords (EltTy.packing .f32)

variable [Facts₀]

def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v61) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S128x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048x64 : Shape := ⟨2, ![2048, 64]⟩
abbrev S64x2048 : Shape := ⟨2, ![64, 2048]⟩
abbrev S2048x2048 : Shape := ⟨2, ![2048, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x64, .f32⟩
  | .hbm, ⟨2, _⟩ => ⟨S2048x64, .f32⟩
  | .hbm, ⟨3, _⟩ => ⟨S64x2048, .f32⟩
  | .hbm, ⟨4, _⟩ => ⟨S2048x2048, .f32⟩
  | .hbm, ⟨5, _⟩ => ⟨S64x2048, .f32⟩
  | .hbm, ⟨6, _⟩ => ⟨S2048x2048, .f32⟩
  | .hbm, ⟨7, _⟩ => ⟨S2048x2048, .f32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]

class Facts₀ : Prop where
  transposes_S2048x64_S64x2048_1_0 : S2048x64.Transposes [1, 0] S64x2048
  bcast_S_S2048x2048 : S_.BroadcastsInDim S2048x2048 (![] : Fin 0 → Fin S2048x2048.rank)
  dot_S2048x64_S64x2048_S2048x2048_1_0_0_1_n_n_wf : DotDims.WF S2048x64 S64x2048 S2048x2048 [1] [0] [0] [1] [] []
  dot_S2048x2048_S2048x2048_S2048x2048_1_0_0_1_n_n_wf : DotDims.WF S2048x2048 S2048x2048 S2048x2048 [1] [0] [0] [1] [] []
  dot_S8x2048x2048_S2048x2048_S8x2048x2048_2_1_01_0_n_n_wf : DotDims.WF S8x2048x2048 S2048x2048 S8x2048x2048 [2] [1] [0, 1] [0] [] []

variable [Facts₀]

def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.Lift.lean ====
/-
  Real matrices read as arrays of extended reals, and the array operations that act on them as the matrix
  operations do. An array all of whose entries are real numbers is `lift M` for the real matrix `M` of its entries;
  sums, differences, negations, transposes, the scalar 2 times a matrix, the zero and identity patterns, and both
  kinds of matrix product (the host's and the matrix unit's) of such arrays are again of that form, the matrix
  being the corresponding operation on real matrices. This is what lets a claim about two programs over the
  extended reals be settled by an identity between real matrices: no infinity ever enters.
-/
import Mathlib.Data.Matrix.Basic
import Mathlib.Data.Matrix.Mul
import Idealize.ShloMosaic.Lib.ValueIdx
import Idealize.ShloMosaic.Lib.IdealHost
import Idealize.ShloMosaic.Lib.Pipeline.Value
import Idealize.ShloMosaic.PureOps.Ideal.Laws

noncomputable section

namespace Cert.Lift

open Idealize.ShloMosaic Idealize.ShloMosaic.ValueIdx

/-- The array whose entry at `(p, q)` is the real number `M p q`. -/
def lift {a b : ℕ} (M : Matrix (Fin a) (Fin b) ℝ) : FVec Ideal ⟨2, ![a, b]⟩ .f32 :=
  fun i => ((M ⟨(i 0).val, idx2_lt0 i⟩ ⟨(i 1).val, idx2_lt1 i⟩ : ℝ) : EReal)

theorem lift_apply {a b : ℕ} (M : Matrix (Fin a) (Fin b) ℝ) (i : (⟨2, ![a, b]⟩ : Shape).Idx) :
    lift M i = ((M ⟨(i 0).val, idx2_lt0 i⟩ ⟨(i 1).val, idx2_lt1 i⟩ : ℝ) : EReal) := rfl

theorem lift_ix2 {a b : ℕ} (M : Matrix (Fin a) (Fin b) ℝ) (p : Fin a) (q : Fin b) :
    lift M (ix2 p q) = ((M p q : ℝ) : EReal) := rfl

/-- A finite sum of real numbers, read in the extended reals, is the sum of the readings. -/
theorem coe_sum {ι : Type} (s : Finset ι) (f : ι → ℝ) : ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

theorem lift_add {a b : ℕ} (A B : Matrix (Fin a) (Fin b) ℝ) : addf (lift A) (lift B) = lift (A + B) := by
  funext i; simp only [addf_apply, lift_apply, Matrix.add_apply, EReal.coe_add]

theorem lift_sub {a b : ℕ} (A B : Matrix (Fin a) (Fin b) ℝ) : subf (lift A) (lift B) = lift (A - B) := by
  funext i; simp only [subf_apply, lift_apply, Matrix.sub_apply, EReal.coe_sub]

theorem lift_neg {a b : ℕ} (A : Matrix (Fin a) (Fin b) ℝ) : Host.negf (lift A) = lift (-A) := by
  funext i
  show FloatOps.hostNegf (lift A i) = _
  simp only [Ideal.hostNegf_def, Ideal.negf_def, lift_apply, Matrix.neg_apply, EReal.coe_neg]

/-- The pattern of `2.0` is the real number two. -/
theorem ofBits_two : Ideal.ofBits .f32 0x40000000#32 = ((2 : ℝ) : EReal) := by
  simp [Ideal.ofBits, Ideal.ieee, -EReal.coe_mul]; norm_num

theorem lift_two_mul {a b : ℕ} (h : (⟨0, ![]⟩ : Shape).BroadcastsInDim ⟨2, ![a, b]⟩ ![]) (A : Matrix (Fin a) (Fin b) ℝ) :
    mulf (broadcastInDim ⟨2, ![a, b]⟩ ![] h (constant (F := Ideal) ⟨0, ![]⟩ .f32 0x40000000#32)) (lift A) = lift ((2 : ℝ) • A) := by
  funext i
  rw [mulf_apply, broadcastInDim_scalar_apply, constant_apply, ofBits_two, lift_apply, lift_apply, Matrix.smul_apply,
    smul_eq_mul, EReal.coe_mul]

theorem lift_zero {a b : ℕ} (h : (⟨0, ![]⟩ : Shape).BroadcastsInDim ⟨2, ![a, b]⟩ ![]) :
    broadcastInDim ⟨2, ![a, b]⟩ ![] h (constant (F := Ideal) ⟨0, ![]⟩ .f32 0x00000000#32) = lift (0 : Matrix (Fin a) (Fin b) ℝ) := by
  funext i
  rw [broadcastInDim_scalar_apply, constant_apply, Ideal.ofBits_zero_f32, lift_apply, Matrix.zero_apply, EReal.coe_zero]

/-- The identity pattern: the row number compared with the column number, the truth value read as a float. -/
theorem lift_eye {n : ℕ} (hn : n ≤ 2 ^ 32) (h : (⟨0, ![]⟩ : Shape).BroadcastsInDim ⟨2, ![n, n]⟩ ![]) :
    uitofp (F := Ideal) .f32 (cmpi .eq (addi (iotaInDim ⟨2, ![n, n]⟩ 32 0)
        (broadcastInDim ⟨2, ![n, n]⟩ ![] h (constantI ⟨0, ![]⟩ 32 0#32))) (iotaInDim ⟨2, ![n, n]⟩ 32 1))
      = lift (1 : Matrix (Fin n) (Fin n) ℝ) := by
  funext i
  show FloatOps.uitofp (F := Ideal) .f32 (IntOp.cmpi .eq (IntOp.addi (BitVec.ofNat 32 (i 0).val)
      (broadcastInDim ⟨2, ![n, n]⟩ ![] h (constantI ⟨0, ![]⟩ 32 0#32) i)) (BitVec.ofNat 32 (i 1).val)) = _
  rw [broadcastInDim_scalar_apply]
  show (((IntOp.cmpi .eq (IntOp.addi (BitVec.ofNat 32 (i 0).val) 0#32) (BitVec.ofNat 32 (i 1).val)).toNat : ℝ) : EReal) = _
  have h0 : (i 0).val < 2 ^ 32 := lt_of_lt_of_le (i 0).isLt hn
  have h1 : (i 1).val < 2 ^ 32 := lt_of_lt_of_le (i 1).isLt hn
  rw [lift_apply, Matrix.one_apply]
  by_cases e : (i 0).val = (i 1).val
  · have e' : (⟨(i 0).val, idx2_lt0 i⟩ : Fin n) = ⟨(i 1).val, idx2_lt1 i⟩ := Fin.ext e
    rw [if_pos e']
    have : IntOp.cmpi .eq (IntOp.addi (BitVec.ofNat 32 (i 0).val) 0#32) (BitVec.ofNat 32 (i 1).val) = 1#1 := by
      simp [IntOp.cmpi, IntOp.addi, e]
    rw [this]; simp
  · have e' : ¬ (⟨(i 0).val, idx2_lt0 i⟩ : Fin n) = ⟨(i 1).val, idx2_lt1 i⟩ := fun hh => e (congrArg Fin.val hh)
    rw [if_neg e']
    have hne : (i 0).val ≠ (i 1).val := e
    have : IntOp.cmpi .eq (IntOp.addi (BitVec.ofNat 32 (i 0).val) 0#32) (BitVec.ofNat 32 (i 1).val) = 0#1 := by
      simp only [IntOp.cmpi, IntOp.addi, BitVec.add_zero]
      have : ¬ (BitVec.ofNat 32 (i 0).val = BitVec.ofNat 32 (i 1).val) := by
        intro hh
        have := congrArg BitVec.toNat hh
        simp only [BitVec.toNat_ofNat] at this
        rw [Nat.mod_eq_of_lt h0, Nat.mod_eq_of_lt h1] at this
        exact hne this
      rw [beq_eq_false_iff_ne.mpr this]; rfl
    rw [this]; simp

theorem lift_transpose {a b : ℕ} (h : (⟨2, ![a, b]⟩ : Shape).Transposes [1, 0] ⟨2, ![b, a]⟩) (A : Matrix (Fin a) (Fin b) ℝ) :
    transpose ⟨2, ![b, a]⟩ [1, 0] (lift A) h = lift A.transpose := by
  funext i
  rw [transpose_apply [1, 0] (lift A) h i (ix2 (i 1) (i 0)) (fun c => match c with
    | ⟨0, _⟩ => rfl
    | ⟨1, _⟩ => rfl)]
  rfl

/-! ## Matrix products -/

section Dot

variable {M K N : ℕ}

theorem plain_lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem plain_lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem plain_rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem plain_rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain `M × K` by `K × N` product, over the contracted coordinate `k`: row `j 0` of the
    left operand against column `j 1` of the right. -/
theorem plain_sum (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (⟨(j 0).val, idx2_lt0 j⟩ : Fin M) k) * r (ix2 k (⟨(j 1).val, idx2_lt1 j⟩ : Fin N)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (⟨(j 0).val, idx2_lt0 j⟩ : Fin M) k :=
    funext fun a => Fin.ext (by
      match a with
      | ⟨0, _⟩ => exact plain_lhs0 _ _
      | ⟨1, _⟩ => exact (plain_lhs1 _ _).trans hk)
  have er : (DotDims.plain M K N).rhsIdx j ((contrEquiv1 (DotDims.plain M K N) K rfl rfl).symm k)
      = ix2 k (⟨(j 1).val, idx2_lt1 j⟩ : Fin N) :=
    funext fun a => Fin.ext (by
      match a with
      | ⟨0, _⟩ => exact (plain_rhs0 _ _).trans hk
      | ⟨1, _⟩ => exact plain_rhs1 _ _)
  exact congrArg₂ (· * ·) (congrArg l el) (congrArg r er)

theorem lifted_sum (A : Matrix (Fin M) (Fin K) ℝ) (B : Matrix (Fin K) (Fin N) ℝ) (j : (⟨2, ![M, N]⟩ : Shape).Idx) :
    ∑ k : Fin K, lift A (ix2 (⟨(j 0).val, idx2_lt0 j⟩ : Fin M) k) * lift B (ix2 k (⟨(j 1).val, idx2_lt1 j⟩ : Fin N)) = lift (A * B) j := by
  rw [lift_apply, Matrix.mul_apply, coe_sum]
  exact Finset.sum_congr rfl fun k _ => by rw [lift_ix2, lift_ix2, EReal.coe_mul]

/-- The host's product of two real arrays is the real matrix product. -/
theorem lift_dot (d : DotDims ⟨2, ![M, K]⟩ ⟨2, ![K, N]⟩ ⟨2, ![M, N]⟩) (hd : d = DotDims.plain M K N)
    (prec : Option ContractPrecision) (A : Matrix (Fin M) (Fin K) ℝ) (B : Matrix (Fin K) (Fin N) ℝ) :
    Host.dotGeneral (F := Ideal) d prec (lift A) (lift B) = lift (A * B) := by
  subst hd
  funext j
  simp only [Host.dotGeneral]
  rw [Ideal.dotGeneral_apply, plain_sum, lifted_sum]

/-- The matrix unit's product of two real arrays into a zero accumulator is the real matrix product. -/
theorem lift_matmul (d : DotDims ⟨2, ![M, K]⟩ ⟨2, ![K, N]⟩ ⟨2, ![M, N]⟩) (hd : d = DotDims.plain M K N)
    (prec : Option ContractPrecision) (A : Matrix (Fin M) (Fin K) ℝ) (B : Matrix (Fin K) (Fin N) ℝ) :
    matmul (F := Ideal) d prec (lift A) (lift B) (constant ⟨2, ![M, N]⟩ .f32 0x00000000#32) = lift (A * B) := by
  subst hd
  funext j
  simp only [matmul]
  rw [Ideal.matmul_constant_zero_apply, plain_sum, lifted_sum]

end Dot

end Cert.Lift

end
-- ==== Proof.Blocks.lean ====
/-
  Two real matrices laid side by side, or one above the other. The result's extent along the joined axis is any
  number `d` with a proof that it is the sum of the two pieces' extents, so that two blocks of 64 columns give
  a matrix over `Fin 128` with no cast in sight.
-/
import Mathlib.Data.Matrix.Basic
import Mathlib.Data.Real.Basic

namespace Cert.NS

/-- `X` and `Y` side by side: column `j` is `X`'s column `j` below `b`, and `Y`'s column `j - b` from `b` on. -/
def hcat {a b c d : ℕ} (hd : b + c = d) (X : Matrix (Fin a) (Fin b) ℝ) (Y : Matrix (Fin a) (Fin c) ℝ) :
    Matrix (Fin a) (Fin d) ℝ :=
  fun i j => if h : j.val < b then X i ⟨j.val, h⟩ else Y i ⟨j.val - b, by have := j.isLt; omega⟩

/-- `X` above `Y`: row `i` is `X`'s row `i` below `b`, and `Y`'s row `i - b` from `b` on. -/
def vcat {a b c d : ℕ} (hd : b + c = d) (X : Matrix (Fin b) (Fin a) ℝ) (Y : Matrix (Fin c) (Fin a) ℝ) :
    Matrix (Fin d) (Fin a) ℝ :=
  fun i j => if h : i.val < b then X ⟨i.val, h⟩ j else Y ⟨i.val - b, by have := i.isLt; omega⟩ j

end Cert.NS
-- ==== Proof.LiftLayout.lean ====
/-
  How real matrices read as arrays behave under the layout operations: two arrays laid side by side or one above
  the other are the array of the joined matrix, and a reshape between a three-axis array `[a, b, c]` and the
  two-axis array `[a * b, c]` that lists its `(p, q)` rows in order is the array of the flattened (unflattened)
  table. Last, flattening, multiplying on the right by a transposed matrix and unflattening again is the
  contraction of the table's last axis with that matrix.
-/
import Mathlib.Data.Matrix.Basic
import Mathlib.Data.Matrix.Mul
import Idealize.ShloMosaic.Lib.ValueIdx
import Idealize.ShloMosaic.Lib.Pipeline.Value
import proofs.«158582_j69630009803034_2_alg».proof.Proof.Lift
import proofs.«158582_j69630009803034_2_alg».proof.Proof.Blocks

noncomputable section

namespace Cert.Lift

open Idealize.ShloMosaic Idealize.ShloMosaic.ValueIdx

/-! ## Three-axis tables of real numbers as arrays -/

/-- A rank-3 index's coordinates are below the extents, written as the extents themselves. -/
theorem idx3_lt0 {n0 n1 n2 : ℕ} (j : (⟨3, ![n0, n1, n2]⟩ : Shape).Idx) : (j 0).val < n0 := (j 0).isLt
theorem idx3_lt1 {n0 n1 n2 : ℕ} (j : (⟨3, ![n0, n1, n2]⟩ : Shape).Idx) : (j 1).val < n1 := (j 1).isLt
theorem idx3_lt2 {n0 n1 n2 : ℕ} (j : (⟨3, ![n0, n1, n2]⟩ : Shape).Idx) : (j 2).val < n2 := (j 2).isLt

/-- The array whose entry at `(p, q, r)` is the real number `T p q r`. -/
def lift3 {a b c : ℕ} (T : Fin a → Fin b → Fin c → ℝ) : FVec Ideal ⟨3, ![a, b, c]⟩ .f32 :=
  fun i => ((T ⟨(i 0).val, idx3_lt0 i⟩ ⟨(i 1).val, idx3_lt1 i⟩ ⟨(i 2).val, idx3_lt2 i⟩ : ℝ) : EReal)

theorem lift3_apply {a b c : ℕ} (T : Fin a → Fin b → Fin c → ℝ) (i : (⟨3, ![a, b, c]⟩ : Shape).Idx) :
    lift3 T i = ((T ⟨(i 0).val, idx3_lt0 i⟩ ⟨(i 1).val, idx3_lt1 i⟩ ⟨(i 2).val, idx3_lt2 i⟩ : ℝ) : EReal) := rfl

theorem lift3_ix3 {a b c : ℕ} (T : Fin a → Fin b → Fin c → ℝ) (p : Fin a) (q : Fin b) (r : Fin c) :
    lift3 T (ix3 p q r) = ((T p q r : ℝ) : EReal) := rfl

/-! ## Joined matrices -/

section Join
variable {a b c d : ℕ}

/-- Left of the seam, `[X Y]` is `X`. -/
theorem hcat_apply_lt (hd : b + c = d) (X : Matrix (Fin a) (Fin b) ℝ) (Y : Matrix (Fin a) (Fin c) ℝ)
    (i : Fin a) (j : Fin d) (h : j.val < b) : Cert.NS.hcat hd X Y i j = X i ⟨j.val, h⟩ := dif_pos h

/-- From the seam on, `[X Y]` is `Y`, the column number less `X`'s width. -/
theorem hcat_apply_ge (hd : b + c = d) (X : Matrix (Fin a) (Fin b) ℝ) (Y : Matrix (Fin a) (Fin c) ℝ)
    (i : Fin a) (j : Fin d) (h : ¬ j.val < b) :
    Cert.NS.hcat hd X Y i j = Y i ⟨j.val - b, by have := j.isLt; omega⟩ := dif_neg h

/-- Above the seam, `[X; Y]` is `X`. -/
theorem vcat_apply_lt (hd : b + c = d) (X : Matrix (Fin b) (Fin a) ℝ) (Y : Matrix (Fin c) (Fin a) ℝ)
    (i : Fin d) (j : Fin a) (h : i.val < b) : Cert.NS.vcat hd X Y i j = X ⟨i.val, h⟩ j := dif_pos h

/-- From the seam on, `[X; Y]` is `Y`, the row number less `X`'s height. -/
theorem vcat_apply_ge (hd : b + c = d) (X : Matrix (Fin b) (Fin a) ℝ) (Y : Matrix (Fin c) (Fin a) ℝ)
    (i : Fin d) (j : Fin a) (h : ¬ i.val < b) :
    Cert.NS.vcat hd X Y i j = Y ⟨i.val - b, by have := i.isLt; omega⟩ j := dif_neg h

/-- Two real arrays joined along the column axis are the array of the matrices side by side. -/
theorem lift_hcat (hd : b + c = d)
    (h : Shape.Concatenates [(⟨2, ![a, b]⟩ : Shape), ⟨2, ![a, c]⟩] ⟨2, ![a, d]⟩ 1)
    (X : Matrix (Fin a) (Fin b) ℝ) (Y : Matrix (Fin a) (Fin c) ℝ) :
    concatenate ⟨2, ![a, d]⟩ 1 [⟨⟨2, ![a, b]⟩, lift X⟩, ⟨⟨2, ![a, c]⟩, lift Y⟩] h
      = lift (Cert.NS.hcat hd X Y) := by
  funext j
  by_cases hj : (j 1).val < b
  · refine (concatenate_pair_apply_left 1 (lift X) (lift Y) h j rfl
      (ix2 (⟨(j 0).val, idx2_lt0 j⟩ : Fin a) (⟨(j 1).val, hj⟩ : Fin b))
      (fun e => match e with | ⟨0, _⟩ => rfl | ⟨1, _⟩ => rfl)).trans ?_
    exact congrArg (fun x : ℝ => (x : EReal))
      (hcat_apply_lt hd X Y ⟨(j 0).val, idx2_lt0 j⟩ ⟨(j 1).val, idx2_lt1 j⟩ hj).symm
  · have hlt : (j 1).val < d := idx2_lt1 j
    refine (concatenate_pair_apply_right 1 (lift X) (lift Y) h j rfl rfl
      (ix2 (⟨(j 0).val, idx2_lt0 j⟩ : Fin a) (⟨(j 1).val - b, by omega⟩ : Fin c))
      (fun e => match e with | ⟨0, _⟩ => fun _ => rfl | ⟨1, _⟩ => fun hne => absurd rfl hne)
      (by show (j 1).val - b + b = (j 1).val; omega)).trans ?_
    exact congrArg (fun x : ℝ => (x : EReal))
      (hcat_apply_ge hd X Y ⟨(j 0).val, idx2_lt0 j⟩ ⟨(j 1).val, idx2_lt1 j⟩ hj).symm

/-- Two real arrays joined along the row axis are the array of the matrices one above the other. -/
theorem lift_vcat (hd : b + c = d)
    (h : Shape.Concatenates [(⟨2, ![b, a]⟩ : Shape), ⟨2, ![c, a]⟩] ⟨2, ![d, a]⟩ 0)
    (X : Matrix (Fin b) (Fin a) ℝ) (Y : Matrix (Fin c) (Fin a) ℝ) :
    concatenate ⟨2, ![d, a]⟩ 0 [⟨⟨2, ![b, a]⟩, lift X⟩, ⟨⟨2, ![c, a]⟩, lift Y⟩] h
      = lift (Cert.NS.vcat hd X Y) := by
  funext j
  by_cases hj : (j 0).val < b
  · refine (concatenate_pair_apply_left 0 (lift X) (lift Y) h j rfl
      (ix2 (⟨(j 0).val, hj⟩ : Fin b) (⟨(j 1).val, idx2_lt1 j⟩ : Fin a))
      (fun e => match e with | ⟨0, _⟩ => rfl | ⟨1, _⟩ => rfl)).trans ?_
    exact congrArg (fun x : ℝ => (x : EReal))
      (vcat_apply_lt hd X Y ⟨(j 0).val, idx2_lt0 j⟩ ⟨(j 1).val, idx2_lt1 j⟩ hj).symm
  · have hlt : (j 0).val < d := idx2_lt0 j
    refine (concatenate_pair_apply_right 0 (lift X) (lift Y) h j rfl rfl
      (ix2 (⟨(j 0).val - b, by omega⟩ : Fin c) (⟨(j 1).val, idx2_lt1 j⟩ : Fin a))
      (fun e => match e with | ⟨0, _⟩ => fun hne => absurd rfl hne | ⟨1, _⟩ => fun _ => rfl)
      (by show (j 0).val - b + b = (j 0).val; omega)).trans ?_
    exact congrArg (fun x : ℝ => (x : EReal))
      (vcat_apply_ge hd X Y ⟨(j 0).val, idx2_lt0 j⟩ ⟨(j 1).val, idx2_lt1 j⟩ hj).symm

end Join

/-! ## Flattening the two leading axes -/

section Flatten
variable {a b c n : ℕ}

/-- Row `r` of the flattened table comes from the pair `(r / b, r % b)`: the quotient is below `a` … -/
theorem flat_div_lt (hn : a * b = n) (r : Fin n) : r.val / b < a := by
  have h : r.val < b * a := lt_of_lt_of_eq r.isLt (hn.symm.trans (Nat.mul_comm a b))
  exact Nat.div_lt_of_lt_mul h

/-- … and the remainder below `b` (which is positive, there being a row at all). -/
theorem flat_mod_lt (hn : a * b = n) (r : Fin n) : r.val % b < b := by
  have h : r.val < a * b := lt_of_lt_of_eq r.isLt hn.symm
  refine Nat.mod_lt _ (Nat.pos_of_ne_zero fun hb => ?_)
  rw [hb, Nat.mul_zero] at h
  exact Nat.not_lt_zero _ h

/-- The pair `(p, q)` is row `p * b + q`, which is below `a * b`. -/
theorem unflat_lt (hn : a * b = n) (p : Fin a) (q : Fin b) : p.val * b + q.val < n := by
  subst hn
  calc p.val * b + q.val < p.val * b + b := Nat.add_lt_add_left q.isLt _
    _ = (p.val + 1) * b := (Nat.succ_mul _ _).symm
    _ ≤ a * b := Nat.mul_le_mul_right _ p.isLt

/-- The table `T` with its two leading axes merged: row `r` is `T (r / b) (r % b)`. -/
def flat (hn : a * b = n) (T : Fin a → Fin b → Fin c → ℝ) : Matrix (Fin n) (Fin c) ℝ :=
  fun r q => T ⟨r.val / b, flat_div_lt hn r⟩ ⟨r.val % b, flat_mod_lt hn r⟩ q

/-- The matrix `M` with its row axis split in two: entry `(p, q)` is row `p * b + q`. -/
def unflat (hn : a * b = n) (M : Matrix (Fin n) (Fin c) ℝ) : Fin a → Fin b → Fin c → ℝ :=
  fun p q r => M ⟨p.val * b + q.val, unflat_lt hn p q⟩ r

/-- Reshaping `[a, b, c]` to `[a * b, c]` flattens the table. -/
theorem lift_flatten (hn : a * b = n) (h : (⟨3, ![a, b, c]⟩ : Shape).ShapeCasts ⟨2, ![n, c]⟩)
    (T : Fin a → Fin b → Fin c → ℝ) :
    shapeCast ⟨2, ![n, c]⟩ (lift3 T) h = lift (flat hn T) := by
  funext j
  refine (shapeCast_apply (lift3 T) h j
    (ix3 (⟨(j 0).val / b, flat_div_lt hn ⟨(j 0).val, idx2_lt0 j⟩⟩ : Fin a)
      (⟨(j 0).val % b, flat_mod_lt hn ⟨(j 0).val, idx2_lt0 j⟩⟩ : Fin b) (⟨(j 1).val, idx2_lt1 j⟩ : Fin c))
    (by
      rw [Shape.rowMajor_val_three, Shape.rowMajor_val_two]
      show ((j 0).val / b * b + (j 0).val % b) * c + (j 1).val = (j 0).val * c + (j 1).val
      rw [Nat.div_add_mod'])).trans ?_
  rfl

/-- Reshaping `[a * b, c]` to `[a, b, c]` splits the row axis. -/
theorem lift_unflatten (hn : a * b = n) (h : (⟨2, ![n, c]⟩ : Shape).ShapeCasts ⟨3, ![a, b, c]⟩)
    (M : Matrix (Fin n) (Fin c) ℝ) :
    shapeCast ⟨3, ![a, b, c]⟩ (lift M) h = lift3 (unflat hn M) := by
  funext j
  refine (shapeCast_apply (lift M) h j
    (ix2 (⟨(j 0).val * b + (j 1).val, unflat_lt hn ⟨(j 0).val, idx3_lt0 j⟩ ⟨(j 1).val, idx3_lt1 j⟩⟩ : Fin n)
      (⟨(j 2).val, idx3_lt2 j⟩ : Fin c))
    (by
      rw [Shape.rowMajor_val_two, Shape.rowMajor_val_three]
      rfl)).trans ?_
  rfl

/-- Row `p * b + q` has quotient `p` … -/
theorem mul_add_div_of_lt (p q : ℕ) (hq : q < b) : (p * b + q) / b = p := by
  rw [Nat.add_comm, Nat.add_mul_div_right _ _ (Nat.lt_of_le_of_lt (Nat.zero_le _) hq), Nat.div_eq_of_lt hq,
    Nat.zero_add]

/-- … and remainder `q`. -/
theorem mul_add_mod_of_lt (p q : ℕ) (hq : q < b) : (p * b + q) % b = q := by
  rw [Nat.add_comm, Nat.add_mul_mod_self_right, Nat.mod_eq_of_lt hq]

/-- Flattening and then reading row `p * b + q` gives back entry `(p, q)`. -/
theorem flat_apply_mul_add (hn : a * b = n) (T : Fin a → Fin b → Fin c → ℝ) (p : Fin a) (q : Fin b) (i : Fin c) :
    flat hn T ⟨p.val * b + q.val, unflat_lt hn p q⟩ i = T p q i := by
  have e1 : (⟨(p.val * b + q.val) / b, flat_div_lt hn ⟨p.val * b + q.val, unflat_lt hn p q⟩⟩ : Fin a) = p :=
    Fin.ext (mul_add_div_of_lt p.val q.val q.isLt)
  have e2 : (⟨(p.val * b + q.val) % b, flat_mod_lt hn ⟨p.val * b + q.val, unflat_lt hn p q⟩⟩ : Fin b) = q :=
    Fin.ext (mul_add_mod_of_lt p.val q.val q.isLt)
  show T ⟨(p.val * b + q.val) / b, _⟩ ⟨(p.val * b + q.val) % b, _⟩ i = T p q i
  rw [e1, e2]

/-- Unflattening a flattened table gives the table back. -/
theorem unflat_flat (hn : a * b = n) (T : Fin a → Fin b → Fin c → ℝ) : unflat hn (flat hn T) = T := by
  funext p q i
  exact flat_apply_mul_add hn T p q i

/-- Flatten, multiply on the right by `Wᵀ`, unflatten: the last axis of the table contracted with `W`'s rows. -/
theorem unflat_flat_mul {e : ℕ} (hn : a * b = n) (T : Fin a → Fin b → Fin c → ℝ) (W : Matrix (Fin e) (Fin c) ℝ) :
    unflat hn (flat hn T * W.transpose) = fun p q o => ∑ i : Fin c, T p q i * W o i := by
  funext p q o
  show (flat hn T * W.transpose) ⟨p.val * b + q.val, unflat_lt hn p q⟩ o = _
  rw [Matrix.mul_apply]
  exact Finset.sum_congr rfl fun i _ => by rw [flat_apply_mul_add, Matrix.transpose_apply]

end Flatten

end Cert.Lift

end
-- ==== Proof.NSAlgebra.lean ====
import Mathlib.Data.Matrix.Basic
import Mathlib.Data.Matrix.Mul
import Mathlib.Data.Real.Basic
import Mathlib.Tactic

/-!
# Dense Newton–Schulz iteration versus its low-rank form

For a rectangular matrix `P : n × k` every matrix of the shape `1 + P * c * Pᵀ` is determined by
its small core `c : k × k`.  Products of two such matrices are again of this shape, with core
`c₁ + c₂ + c₁ * (Pᵀ * P) * c₂`.  Consequently the Newton–Schulz step
`X ↦ X * (2 • 1 - B * X)` for `B = 1 - P * J * Pᵀ`, started at `X = 1`, can be carried out on the
`k × k` cores only.
-/

namespace Cert.NS

open Matrix

variable {n k r : Type*} [Fintype n] [DecidableEq n] [Fintype k] [DecidableEq k] [Fintype r]

/-- Core of the product `(1 + P c₁ Pᵀ) (1 + P c₂ Pᵀ)`, where `g = Pᵀ P`. -/
def comb (c1 c2 g : Matrix k k ℝ) : Matrix k k ℝ := (c1 + c2) + (c1 * g) * c2

/-- One Newton–Schulz step on the cores: with `D` the core of `B * X`, the new core is the core
of `X * (1 + P (-D) Pᵀ)`. -/
def stepC (J G C : Matrix k k ℝ) : Matrix k k ℝ := comb C (-(comb (-J) C G)) G

/-- Core of `(1 + P J Pᵀ) * X`. -/
def finalE (J G C : Matrix k k ℝ) : Matrix k k ℝ := comb J C G

/-- One dense Newton–Schulz step for the inverse of `B`. -/
def stepX (B X : Matrix n n ℝ) : Matrix n n ℝ := X * ((2:ℝ) • (1 : Matrix n n ℝ) - B * X)

/-- The product of two matrices of the shape `1 + P c Pᵀ` has the same shape. -/
theorem comb_spec (P : Matrix n k ℝ) (c1 c2 : Matrix k k ℝ) :
    (1 + P * c1 * Pᵀ) * (1 + P * c2 * Pᵀ) = 1 + P * comb c1 c2 (Pᵀ * P) * Pᵀ := by
  unfold comb
  simp only [Matrix.mul_add, Matrix.add_mul, Matrix.mul_one, Matrix.one_mul, Matrix.mul_assoc]
  abel

/-- `1 - P J Pᵀ` has core `-J`. -/
theorem one_sub_lowrank (P : Matrix n k ℝ) (J : Matrix k k ℝ) :
    (1 : Matrix n n ℝ) - P * J * Pᵀ = 1 + P * (-J) * Pᵀ := by
  rw [Matrix.mul_neg, Matrix.neg_mul, sub_eq_add_neg]

/-- `2 • 1 - (1 + P D Pᵀ)` has core `-D`. -/
theorem two_sub_lowrank (P : Matrix n k ℝ) (D : Matrix k k ℝ) :
    (2:ℝ) • (1 : Matrix n n ℝ) - (1 + P * D * Pᵀ) = 1 + P * (-D) * Pᵀ := by
  rw [Matrix.mul_neg, Matrix.neg_mul, two_smul]
  abel

/-- A dense Newton–Schulz step acts on the cores as `stepC`. -/
theorem stepX_spec (P : Matrix n k ℝ) (J C : Matrix k k ℝ) :
    stepX (1 - P * J * Pᵀ) (1 + P * C * Pᵀ) = 1 + P * stepC J (Pᵀ * P) C * Pᵀ := by
  unfold stepX stepC
  rw [one_sub_lowrank, comb_spec, two_sub_lowrank, comb_spec]

/-- The first step, started at the identity, i.e. at core `0`. -/
theorem stepX_one (P : Matrix n k ℝ) (J : Matrix k k ℝ) :
    stepX (1 - P * J * Pᵀ) (1 : Matrix n n ℝ) = 1 + P * stepC J (Pᵀ * P) 0 * Pᵀ := by
  have h := stepX_spec P J 0
  rw [Matrix.mul_zero, Matrix.zero_mul, add_zero] at h
  exact h

/-- Transposition preserves the shape and transposes the core. -/
theorem transpose_lowrank (P : Matrix n k ℝ) (E : Matrix k k ℝ) :
    (1 + P * E * Pᵀ)ᵀ = 1 + P * Eᵀ * Pᵀ := by
  rw [Matrix.transpose_add, Matrix.transpose_one, Matrix.transpose_mul, Matrix.transpose_mul,
    Matrix.transpose_transpose, Matrix.mul_assoc]

/-- Four dense Newton–Schulz steps for `1 - P J Pᵀ`, multiplied by `1 + P J Pᵀ`, transposed and
applied to `x` from the right, equal the low-rank update of `x` computed from four steps on the
cores. -/
theorem main (P : Matrix n k ℝ) (J : Matrix k k ℝ) (x : Matrix r n ℝ) :
    x * ((1 + P * J * Pᵀ) *
        stepX (1 - P * J * Pᵀ) (stepX (1 - P * J * Pᵀ) (stepX (1 - P * J * Pᵀ)
          (stepX (1 - P * J * Pᵀ) 1))))ᵀ
      = x + ((x * P) * (finalE J (Pᵀ * P)
          (stepC J (Pᵀ * P) (stepC J (Pᵀ * P) (stepC J (Pᵀ * P) (stepC J (Pᵀ * P) 0)))))ᵀ) * Pᵀ := by
  rw [stepX_one, stepX_spec, stepX_spec, stepX_spec, comb_spec, transpose_lowrank,
    Matrix.mul_add, Matrix.mul_one]
  unfold finalE
  simp only [Matrix.mul_assoc]

/-- The same statement with the dense matrix `A` given by a hypothesis `A = P J Pᵀ`. -/
theorem main' (P : Matrix n k ℝ) (J : Matrix k k ℝ) (x : Matrix r n ℝ) (A : Matrix n n ℝ)
    (hA : A = P * J * Pᵀ) :
    x * ((1 + A) * stepX (1 - A) (stepX (1 - A) (stepX (1 - A) (stepX (1 - A) 1))))ᵀ
      = x + ((x * P) * (finalE J (Pᵀ * P)
          (stepC J (Pᵀ * P) (stepC J (Pᵀ * P) (stepC J (Pᵀ * P) (stepC J (Pᵀ * P) 0)))))ᵀ) * Pᵀ := by
  subst hA
  exact main P J x

end Cert.NS
-- ==== Proof.NSBlock.lean ====
import Mathlib.Data.Matrix.Basic
import Mathlib.Data.Matrix.Mul
import Mathlib.Data.Real.Basic
import Mathlib.Algebra.BigOperators.Fin
import Mathlib.Tactic
import proofs.«158582_j69630009803034_2_alg».proof.Proof.Blocks
import proofs.«158582_j69630009803034_2_alg».proof.Proof.NSAlgebra

/-!
# Multiplying concatenated matrices blockwise

Rules for the product, sum and transpose of matrices laid side by side (`hcat`) or one above the
other (`vcat`), the identity `[U V] * [[0, 1], [-1, 0]] * [U V]ᵀ = U Vᵀ - V Uᵀ` for blocks of
64 columns, and the resulting low-rank form of four Newton–Schulz steps for `1 - (U Vᵀ - V Uᵀ)`.
-/

namespace Cert.NS

open Matrix

section
variable {a b c d e : ℕ}

theorem hcat_apply_castAdd (X : Matrix (Fin a) (Fin b) ℝ) (Y : Matrix (Fin a) (Fin c) ℝ)
    (i : Fin a) (j : Fin b) : hcat rfl X Y i (Fin.castAdd c j) = X i j := by
  simp [hcat]

theorem hcat_apply_natAdd (X : Matrix (Fin a) (Fin b) ℝ) (Y : Matrix (Fin a) (Fin c) ℝ)
    (i : Fin a) (j : Fin c) : hcat rfl X Y i (Fin.natAdd b j) = Y i j := by
  simp [hcat]

theorem vcat_apply_castAdd (X : Matrix (Fin b) (Fin a) ℝ) (Y : Matrix (Fin c) (Fin a) ℝ)
    (i : Fin b) (j : Fin a) : vcat rfl X Y (Fin.castAdd c i) j = X i j := by
  simp [vcat]

theorem vcat_apply_natAdd (X : Matrix (Fin b) (Fin a) ℝ) (Y : Matrix (Fin c) (Fin a) ℝ)
    (i : Fin c) (j : Fin a) : vcat rfl X Y (Fin.natAdd b i) j = Y i j := by
  simp [vcat]

/-- The transpose of `[X Y]` is `[Xᵀ; Yᵀ]`. -/
theorem transpose_hcat (hd : b + c = d) (X : Matrix (Fin a) (Fin b) ℝ)
    (Y : Matrix (Fin a) (Fin c) ℝ) : (hcat hd X Y)ᵀ = vcat hd Xᵀ Yᵀ := by
  ext i j
  simp [hcat, vcat, Matrix.transpose_apply]

/-- `[X Y] * [Z; W] = X Z + Y W`: the sum over the joined index splits into its two pieces. -/
theorem hcat_mul_vcat (hd : b + c = d) (X : Matrix (Fin a) (Fin b) ℝ)
    (Y : Matrix (Fin a) (Fin c) ℝ) (Z : Matrix (Fin b) (Fin e) ℝ) (W : Matrix (Fin c) (Fin e) ℝ) :
    hcat hd X Y * vcat hd Z W = X * Z + Y * W := by
  subst hd
  ext i j
  rw [Matrix.add_apply, Matrix.mul_apply, Matrix.mul_apply, Matrix.mul_apply, Fin.sum_univ_add]
  simp only [hcat_apply_castAdd, hcat_apply_natAdd, vcat_apply_castAdd, vcat_apply_natAdd]

/-- `U * [Z W] = [U Z, U W]`. -/
theorem mul_hcat (hd : b + c = d) (U : Matrix (Fin a) (Fin e) ℝ) (Z : Matrix (Fin e) (Fin b) ℝ)
    (W : Matrix (Fin e) (Fin c) ℝ) : U * hcat hd Z W = hcat hd (U * Z) (U * W) := by
  ext i j
  by_cases h : j.val < b <;> simp [hcat, Matrix.mul_apply, h]

/-- Concatenations add blockwise. -/
theorem hcat_add (hd : b + c = d) (X X' : Matrix (Fin a) (Fin b) ℝ)
    (Y Y' : Matrix (Fin a) (Fin c) ℝ) :
    hcat hd X Y + hcat hd X' Y' = hcat hd (X + X') (Y + Y') := by
  ext i j
  by_cases h : j.val < b <;> simp [hcat, h]

end

/-- Two blocks of 64 make 128. -/
theorem h64 : 64 + 64 = 128 := rfl

/-- The 128 × 128 matrix with 64 × 64 blocks `[[0, 1], [-1, 0]]`. -/
def Jmat : Matrix (Fin 128) (Fin 128) ℝ :=
  vcat h64 (hcat h64 (0 : Matrix (Fin 64) (Fin 64) ℝ) 1)
    (hcat h64 (-(1 : Matrix (Fin 64) (Fin 64) ℝ)) 0)

/-- `[U V] * [[0, 1], [-1, 0]] = [-V, U]`. -/
theorem hcat_mul_Jmat {a : ℕ} (U V : Matrix (Fin a) (Fin 64) ℝ) :
    hcat h64 U V * Jmat = hcat h64 (-V) U := by
  unfold Jmat
  rw [hcat_mul_vcat, mul_hcat, mul_hcat, hcat_add]
  simp

/-- `[U V] * [[0, 1], [-1, 0]] * [U V]ᵀ = U Vᵀ - V Uᵀ`. -/
theorem lowrank_A {a : ℕ} (U V : Matrix (Fin a) (Fin 64) ℝ) :
    hcat h64 U V * Jmat * (hcat h64 U V)ᵀ = U * Vᵀ - V * Uᵀ := by
  rw [hcat_mul_Jmat, transpose_hcat, hcat_mul_vcat, Matrix.neg_mul]
  abel

/-- Four Newton–Schulz steps for `1 - (U Vᵀ - V Uᵀ)`, in low-rank form with `P = [U V]` and core
`[[0, 1], [-1, 0]]`. -/
theorem main_UV {a r : ℕ} (U V : Matrix (Fin a) (Fin 64) ℝ) (x : Matrix (Fin r) (Fin a) ℝ) :
    x * ((1 + (U * Vᵀ - V * Uᵀ)) *
        stepX (1 - (U * Vᵀ - V * Uᵀ)) (stepX (1 - (U * Vᵀ - V * Uᵀ))
          (stepX (1 - (U * Vᵀ - V * Uᵀ)) (stepX (1 - (U * Vᵀ - V * Uᵀ)) 1))))ᵀ
      = x + ((x * hcat h64 U V) * (finalE Jmat ((hcat h64 U V)ᵀ * hcat h64 U V)
          (stepC Jmat ((hcat h64 U V)ᵀ * hcat h64 U V)
            (stepC Jmat ((hcat h64 U V)ᵀ * hcat h64 U V)
              (stepC Jmat ((hcat h64 U V)ᵀ * hcat h64 U V)
                (stepC Jmat ((hcat h64 U V)ᵀ * hcat h64 U V) 0)))))ᵀ) * (hcat h64 U V)ᵀ :=
  main' (hcat h64 U V) Jmat x (U * Vᵀ - V * Uᵀ) (lowrank_A U V).symm

end Cert.NS
-- ==== Proof.KernelHost.lean ====
/-
  The host lines before the kernel's launch, read on real inputs. From the two factors `U`, `V` (2048 × 64) they
  build `P = [U | V]` (2048 × 128), the 128 × 128 block matrix `J = [[0, I], [-I, 0]]`, the Gram matrix `G = Pᵀ P`,
  then four rounds of the 128 × 128 recursion `C ← (C + -D) + (C G)(-D)`, `D = (-J + C) + ((-J) G) C`, from `C = 0`,
  and last `E = (J + C) + (J G) C`; the launch is handed the input with its two leading axes merged, `P`, `Eᵀ` and `Pᵀ`.
  The 65 lines are cut into six stretches (set-up, the four rounds, the hand-over); each stretch is read from ANY
  contents of the buffers it does not write, so that the terms stay small: a round read on its own is ten operations,
  whereas the fourth round's result written out over the inputs repeats the first round's hundreds of times.
  Every array met on the way is an array of real numbers (`lift` of a real matrix), and each operation acts on
  such arrays as the matrix operation of the same name.
-/
import proofs.«158582_j69630009803034_2_alg».proof.Proof.Gen.KernelIdeal.Frame
import proofs.«158582_j69630009803034_2_alg».proof.Proof.Lift
import proofs.«158582_j69630009803034_2_alg».proof.Proof.LiftLayout
import proofs.«158582_j69630009803034_2_alg».proof.Proof.NSBlock
import Idealize.ShloMosaic.Lib.StableHlo.Run

set_option maxRecDepth 8192

noncomputable section

namespace Cert.KHost

open Cert.KernelIdeal Cert.KernelIdeal.Gen
open Idealize.ShloMosaic Idealize.ShloMosaic.TcCoe Idealize.SL.Sem Idealize.ShloMosaic.StableHlo
open Cert.Lift Cert.NS

variable {F : FTy → Type} [FloatOps F]

/-! ## The stretches -/

/-- Set-up: `P`, the blocks of `J`, `J`, `Pᵀ`, `G`, and the zero matrix the recursion starts from. -/
abbrev segPre : List (HloOp τ sig (Elt F)) :=
  [ StableHlo.binary main_arg1 main_arg2 main_v0 ((fun a b => concatenate S2048x128 1 [⟨S2048x64, a⟩, ⟨S2048x64, b⟩] concatenates_S2048x64_S2048x64_S2048x128_d1) : (⟨S2048x64, .f32⟩ : BufTy).Contents (Elt F) → (⟨S2048x64, .f32⟩ : BufTy).Contents (Elt F) → (⟨S2048x128, .f32⟩ : BufTy).Contents (Elt F)),
    StableHlo.nullary main_cst (constant S_ .f32 0x00000000#32),
    StableHlo.unary main_cst main_v1 (broadcastInDim S64x64 ![] bcast_S_S64x64 : (⟨S_, .f32⟩ : BufTy).Contents (Elt F) → (⟨S64x64, .f32⟩ : BufTy).Contents (Elt F)),
    StableHlo.nullary main_v2 (iotaInDim S64x64 32 0),
    StableHlo.nullary main_v3 (iotaInDim S64x64 32 1),
    StableHlo.nullary main_c (constantI S_ 32 0#32),
    StableHlo.unary main_c main_v4 (broadcastInDim S64x64 ![] bcast_S_S64x64 : (⟨S_, .i32⟩ : BufTy).Contents (Elt F) → (⟨S64x64, .i32⟩ : BufTy).Contents (Elt F)),
    StableHlo.binary main_v2 main_v4 main_v5 (addi : (⟨S64x64, .i32⟩ : BufTy).Contents (Elt F) → (⟨S64x64, .i32⟩ : BufTy).Contents (Elt F) → (⟨S64x64, .i32⟩ : BufTy).Contents (Elt F)),
    StableHlo.binary main_v5 main_v3 main_v6 (cmpi .eq : (⟨S64x64, .i32⟩ : BufTy).Contents (Elt F) → (⟨S64x64, .i32⟩ : BufTy).Contents (Elt F) → (⟨S64x64, .i1⟩ : BufTy).Contents (Elt F)),
    StableHlo.unary main_v6 main_v7 (uitofp .f32 : (⟨S64x64, .i1⟩ : BufTy).Contents (Elt F) → (⟨S64x64, .f32⟩ : BufTy).Contents (Elt F)),
    StableHlo.binary main_v1 main_v7 main_v8 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    StableHlo.unary main_v7 main_v9 (Host.negf : (⟨S64x64, .f32⟩ : BufTy).Contents (Elt F) → (⟨S64x64, .f32⟩ : BufTy).Contents (Elt F)),
    StableHlo.binary main_v9 main_v1 main_v10 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    StableHlo.binary main_v8 main_v10 main_v11 ((fun a b => concatenate S128x128 0 [⟨S64x128, a⟩, ⟨S64x128, b⟩] concatenates_S64x128_S64x128_S128x128_d0) : (⟨S64x128, .f32⟩ : BufTy).Contents (Elt F) → (⟨S64x128, .f32⟩ : BufTy).Contents (Elt F) → (⟨S128x128, .f32⟩ : BufTy).Contents (Elt F)),
    StableHlo.unary main_v0 main_v12 ((transpose S128x2048 [1, 0] · transposes_S2048x128_S128x2048_1_0) : (⟨S2048x128, .f32⟩ : BufTy).Contents (Elt F) → (⟨S128x2048, .f32⟩ : BufTy).Contents (Elt F)),
    StableHlo.binary main_v12 main_v0 main_v13 ((fun l r => Host.dotGeneral dot_S128x2048_S2048x128_S128x128_1_0_0_1_n_n (some .fp32) l r) : (⟨S128x2048, .f32⟩ : BufTy).Contents (Elt F) → (⟨S2048x128, .f32⟩ : BufTy).Contents (Elt F) → (⟨S128x128, .f32⟩ : BufTy).Contents (Elt F)),
    StableHlo.nullary main_cst_0 (constant S_ .f32 0x00000000#32),
    StableHlo.unary main_cst_0 main_v14 (broadcastInDim S128x128 ![] bcast_S_S128x128 : (⟨S_, .f32⟩ : BufTy).Contents (Elt F) → (⟨S128x128, .f32⟩ : BufTy).Contents (Elt F)) ]

/-- Round 1 of the recursion. -/
abbrev segIt1 : List (HloOp τ sig (Elt F)) :=
  [ StableHlo.unary main_v11 main_v15 (Host.negf : (⟨S128x128, .f32⟩ : BufTy).Contents (Elt F) → (⟨S128x128, .f32⟩ : BufTy).Contents (Elt F)),
    StableHlo.binary main_v15 main_v14 main_v16 (addf : (⟨S128x128, .f32⟩ : BufTy).Contents (Elt F) → (⟨S128x128, .f32⟩ : BufTy).Contents (Elt F) → (⟨S128x128, .f32⟩ : BufTy).Contents (Elt F)),
    StableHlo.binary main_v15 main_v13 main_v17 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v17 main_v14 main_v18 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v16 main_v18 main_v19 (addf : (⟨S128x128, .f32⟩ : BufTy).Contents (Elt F) → (⟨S128x128, .f32⟩ : BufTy).Contents (Elt F) → (⟨S128x128, .f32⟩ : BufTy).Contents (Elt F)),
    StableHlo.unary main_v19 main_v20 (Host.negf : (⟨S128x128, .f32⟩ : BufTy).Contents (Elt F) → (⟨S128x128, .f32⟩ : BufTy).Contents (Elt F)),
    StableHlo.binary main_v14 main_v20 main_v21 (addf : (⟨S128x128, .f32⟩ : BufTy).Contents (Elt F) → (⟨S128x128, .f32⟩ : BufTy).Contents (Elt F) → (⟨S128x128, .f32⟩ : BufTy).Contents (Elt F)),
    StableHlo.binary main_v14 main_v13 main_v22 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v22 main_v20 main_v23 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v21 main_v23 main_v24 (addf : (⟨S128x128, .f32⟩ : BufTy).Contents (Elt F) → (⟨S128x128, .f32⟩ : BufTy).Contents (Elt F) → (⟨S128x128, .f32⟩ : BufTy).Contents (Elt F)) ]

/-- Round 2 of the recursion. -/
abbrev segIt2 : List (HloOp τ sig (Elt F)) :=
  [ StableHlo.unary main_v11 main_v25 (Host.negf : (⟨S128x128, .f32⟩ : BufTy).Contents (Elt F) → (⟨S128x128, .f32⟩ : BufTy).Contents (Elt F)),
    StableHlo.binary main_v25 main_v24 main_v26 (addf : (⟨S128x128, .f32⟩ : BufTy).Contents (Elt F) → (⟨S128x128, .f32⟩ : BufTy).Contents (Elt F) → (⟨S128x128, .f32⟩ : BufTy).Contents (Elt F)),
    StableHlo.binary main_v25 main_v13 main_v27 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v27 main_v24 main_v28 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v26 main_v28 main_v29 (addf : (⟨S128x128, .f32⟩ : BufTy).Contents (Elt F) → (⟨S128x128, .f32⟩ : BufTy).Contents (Elt F) → (⟨S128x128, .f32⟩ : BufTy).Contents (Elt F)),
    StableHlo.unary main_v29 main_v30 (Host.negf : (⟨S128x128, .f32⟩ : BufTy).Contents (Elt F) → (⟨S128x128, .f32⟩ : BufTy).Contents (Elt F)),
    StableHlo.binary main_v24 main_v30 main_v31 (addf : (⟨S128x128, .f32⟩ : BufTy).Contents (Elt F) → (⟨S128x128, .f32⟩ : BufTy).Contents (Elt F) → (⟨S128x128, .f32⟩ : BufTy).Contents (Elt F)),
    StableHlo.binary main_v24 main_v13 main_v32 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v32 main_v30 main_v33 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v31 main_v33 main_v34 (addf : (⟨S128x128, .f32⟩ : BufTy).Contents (Elt F) → (⟨S128x128, .f32⟩ : BufTy).Contents (Elt F) → (⟨S128x128, .f32⟩ : BufTy).Contents (Elt F)) ]

/-- Round 3 of the recursion. -/
abbrev segIt3 : List (HloOp τ sig (Elt F)) :=
  [ StableHlo.unary main_v11 main_v35 (Host.negf : (⟨S128x128, .f32⟩ : BufTy).Contents (Elt F) → (⟨S128x128, .f32⟩ : BufTy).Contents (Elt F)),
    StableHlo.binary main_v35 main_v34 main_v36 (addf : (⟨S128x128, .f32⟩ : BufTy).Contents (Elt F) → (⟨S128x128, .f32⟩ : BufTy).Contents (Elt F) → (⟨S128x128, .f32⟩ : BufTy).Contents (Elt F)),
    StableHlo.binary main_v35 main_v13 main_v37 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v37 main_v34 main_v38 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v36 main_v38 main_v39 (addf : (⟨S128x128, .f32⟩ : BufTy).Contents (Elt F) → (⟨S128x128, .f32⟩ : BufTy).Contents (Elt F) → (⟨S128x128, .f32⟩ : BufTy).Contents (Elt F)),
    StableHlo.unary main_v39 main_v40 (Host.negf : (⟨S128x128, .f32⟩ : BufTy).Contents (Elt F) → (⟨S128x128, .f32⟩ : BufTy).Contents (Elt F)),
    StableHlo.binary main_v34 main_v40 main_v41 (addf : (⟨S128x128, .f32⟩ : BufTy).Contents (Elt F) → (⟨S128x128, .f32⟩ : BufTy).Contents (Elt F) → (⟨S128x128, .f32⟩ : BufTy).Contents (Elt F)),
    StableHlo.binary main_v34 main_v13 main_v42 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v42 main_v40 main_v43 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v41 main_v43 main_v44 (addf : (⟨S128x128, .f32⟩ : BufTy).Contents (Elt F) → (⟨S128x128, .f32⟩ : BufTy).Contents (Elt F) → (⟨S128x128, .f32⟩ : BufTy).Contents (Elt F)) ]

/-- Round 4 of the recursion. -/
abbrev segIt4 : List (HloOp τ sig (Elt F)) :=
  [ StableHlo.unary main_v11 main_v45 (Host.negf : (⟨S128x128, .f32⟩ : BufTy).Contents (Elt F) → (⟨S128x128, .f32⟩ : BufTy).Contents (Elt F)),
    StableHlo.binary main_v45 main_v44 main_v46 (addf : (⟨S128x128, .f32⟩ : BufTy).Contents (Elt F) → (⟨S128x128, .f32⟩ : BufTy).Contents (Elt F) → (⟨S128x128, .f32⟩ : BufTy).Contents (Elt F)),
    StableHlo.binary main_v45 main_v13 main_v47 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v47 main_v44 main_v48 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v46 main_v48 main_v49 (addf : (⟨S128x128, .f32⟩ : BufTy).Contents (Elt F) → (⟨S128x128, .f32⟩ : BufTy).Contents (Elt F) → (⟨S128x128, .f32⟩ : BufTy).Contents (Elt F)),
    StableHlo.unary main_v49 main_v50 (Host.negf : (⟨S128x128, .f32⟩ : BufTy).Contents (Elt F) → (⟨S128x128, .f32⟩ : BufTy).Contents (Elt F)),
    StableHlo.binary main_v44 main_v50 main_v51 (addf : (⟨S128x128, .f32⟩ : BufTy).Contents (Elt F) → (⟨S128x128, .f32⟩ : BufTy).Contents (Elt F) → (⟨S128x128, .f32⟩ : BufTy).Contents (Elt F)),
    StableHlo.binary main_v44 main_v13 main_v52 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v52 main_v50 main_v53 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v51 main_v53 main_v54 (addf : (⟨S128x128, .f32⟩ : BufTy).Contents (Elt F) → (⟨S128x128, .f32⟩ : BufTy).Contents (Elt F) → (⟨S128x128, .f32⟩ : BufTy).Contents (Elt F)) ]

/-- The hand-over: `E`, `Eᵀ`, `Pᵀ` and the input with its two leading axes merged. -/
abbrev segPost : List (HloOp τ sig (Elt F)) :=
  [ StableHlo.binary main_v11 main_v54 main_v55 (addf : (⟨S128x128, .f32⟩ : BufTy).Contents (Elt F) → (⟨S128x128, .f32⟩ : BufTy).Contents (Elt F) → (⟨S128x128, .f32⟩ : BufTy).Contents (Elt F)),
    StableHlo.binary main_v11 main_v13 main_v56 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v56 main_v54 main_v57 ((fun l r => Host.dotGeneral dot_S128x128_S128x128_S128x128_1_0_0_1_n_n (some .fp32) l r) : (⟨S128x128, .f32⟩ : BufTy).Contents (Elt F) → (⟨S128x128, .f32⟩ : BufTy).Contents (Elt F) → (⟨S128x128, .f32⟩ : BufTy).Contents (Elt F)),
    StableHlo.binary main_v55 main_v57 main_v58 (addf : (⟨S128x128, .f32⟩ : BufTy).Contents (Elt F) → (⟨S128x128, .f32⟩ : BufTy).Contents (Elt F) → (⟨S128x128, .f32⟩ : BufTy).Contents (Elt F)),
    StableHlo.unary main_v58 main_v59 ((transpose S128x128 [1, 0] · transposes_S128x128_S128x128_1_0) : (⟨S128x128, .f32⟩ : BufTy).Contents (Elt F) → (⟨S128x128, .f32⟩ : BufTy).Contents (Elt F)),
    StableHlo.unary main_v0 main_v60 ((transpose S128x2048 [1, 0] · transposes_S2048x128_S128x2048_1_0) : (⟨S2048x128, .f32⟩ : BufTy).Contents (Elt F) → (⟨S128x2048, .f32⟩ : BufTy).Contents (Elt F)),
    StableHlo.reshape main_arg0 main_v61 rfl shapeCasts_S8x2048x2048_S16384x2048 ]

set_option maxHeartbeats 4000000 in
/-- The host lines before the launch are the six stretches, in order. -/
theorem hostOps0_split : (hostOps0 : List (HloOp τ sig (Elt F))) = segPre ++ (segIt1 ++ (segIt2 ++ (segIt3 ++ (segIt4 ++ segPost)))) := rfl

/-! ## The shapes' product records are the plain ones -/

theorem dot_G : dot_S128x2048_S2048x128_S128x128_1_0_0_1_n_n = DotDims.plain 128 2048 128 := rfl
theorem dot_K : dot_S128x128_S128x128_S128x128_1_0_0_1_n_n = DotDims.plain 128 128 128 := rfl

/-! ## Each stretch, read from any contents of the buffers it does not write -/

section Stretches

variable (W : Valuation τ sig (Elt Ideal))

/-- What the later stretches need of the contents they start from: `P`, `J`, `G` and the input, all real. -/
structure Inv (W : Valuation τ sig (Elt Ideal)) (Pm : Matrix (Fin 2048) (Fin 128) ℝ) (J G : Matrix (Fin 128) (Fin 128) ℝ)
    (T : Fin 8 → Fin 2048 → Fin 2048 → ℝ) : Prop where
  p : (W (Proc.devRef .tc main_v0) : FVec Ideal S2048x128 .f32) = lift Pm
  j : (W (Proc.devRef .tc main_v11) : FVec Ideal S128x128 .f32) = lift J
  g : (W (Proc.devRef .tc main_v13) : FVec Ideal S128x128 .f32) = lift G
  x : (W (Proc.devRef .tc main_arg0) : FVec Ideal S8x2048x2048 .f32) = lift3 T

/-- Round 1: from `C` to `(C + -D) + (C G)(-D)`, `D = (-J + C) + ((-J) G) C`; `P`, `J`, `G` and the input are not written. -/
theorem round1 (Pm : Matrix (Fin 2048) (Fin 128) ℝ) (J G C : Matrix (Fin 128) (Fin 128) ℝ) (T : Fin 8 → Fin 2048 → Fin 2048 → ℝ)
    (h : Inv W Pm J G T) (hC : (W (Proc.devRef .tc main_v14) : FVec Ideal S128x128 .f32) = lift C) :
    Inv (after (segIt1 (F := Ideal)) W) Pm J G T
      ∧ (after (segIt1 (F := Ideal)) W (Proc.devRef .tc main_v24) : FVec Ideal S128x128 .f32) = lift (stepC J G C) := by
  refine ⟨⟨?_, ?_, ?_, ?_⟩, ?_⟩
  · rw [← h.p]; after_results_simp
  · rw [← h.j]; after_results_simp
  · rw [← h.g]; after_results_simp
  · rw [← h.x]; after_results_simp
  · after_results_simp
    rw [h.j, h.g, hC]
    simp only [lift_neg, lift_add, lift_dot _ dot_K]
    rfl

/-- Round 2: from `C` to `(C + -D) + (C G)(-D)`, `D = (-J + C) + ((-J) G) C`; `P`, `J`, `G` and the input are not written. -/
theorem round2 (Pm : Matrix (Fin 2048) (Fin 128) ℝ) (J G C : Matrix (Fin 128) (Fin 128) ℝ) (T : Fin 8 → Fin 2048 → Fin 2048 → ℝ)
    (h : Inv W Pm J G T) (hC : (W (Proc.devRef .tc main_v24) : FVec Ideal S128x128 .f32) = lift C) :
    Inv (after (segIt2 (F := Ideal)) W) Pm J G T
      ∧ (after (segIt2 (F := Ideal)) W (Proc.devRef .tc main_v34) : FVec Ideal S128x128 .f32) = lift (stepC J G C) := by
  refine ⟨⟨?_, ?_, ?_, ?_⟩, ?_⟩
  · rw [← h.p]; after_results_simp
  · rw [← h.j]; after_results_simp
  · rw [← h.g]; after_results_simp
  · rw [← h.x]; after_results_simp
  · after_results_simp
    rw [h.j, h.g, hC]
    simp only [lift_neg, lift_add, lift_dot _ dot_K]
    rfl

/-- Round 3: from `C` to `(C + -D) + (C G)(-D)`, `D = (-J + C) + ((-J) G) C`; `P`, `J`, `G` and the input are not written. -/
theorem round3 (Pm : Matrix (Fin 2048) (Fin 128) ℝ) (J G C : Matrix (Fin 128) (Fin 128) ℝ) (T : Fin 8 → Fin 2048 → Fin 2048 → ℝ)
    (h : Inv W Pm J G T) (hC : (W (Proc.devRef .tc main_v34) : FVec Ideal S128x128 .f32) = lift C) :
    Inv (after (segIt3 (F := Ideal)) W) Pm J G T
      ∧ (after (segIt3 (F := Ideal)) W (Proc.devRef .tc main_v44) : FVec Ideal S128x128 .f32) = lift (stepC J G C) := by
  refine ⟨⟨?_, ?_, ?_, ?_⟩, ?_⟩
  · rw [← h.p]; after_results_simp
  · rw [← h.j]; after_results_simp
  · rw [← h.g]; after_results_simp
  · rw [← h.x]; after_results_simp
  · after_results_simp
    rw [h.j, h.g, hC]
    simp only [lift_neg, lift_add, lift_dot _ dot_K]
    rfl

/-- Round 4: from `C` to `(C + -D) + (C G)(-D)`, `D = (-J + C) + ((-J) G) C`; `P`, `J`, `G` and the input are not written. -/
theorem round4 (Pm : Matrix (Fin 2048) (Fin 128) ℝ) (J G C : Matrix (Fin 128) (Fin 128) ℝ) (T : Fin 8 → Fin 2048 → Fin 2048 → ℝ)
    (h : Inv W Pm J G T) (hC : (W (Proc.devRef .tc main_v44) : FVec Ideal S128x128 .f32) = lift C) :
    Inv (after (segIt4 (F := Ideal)) W) Pm J G T
      ∧ (after (segIt4 (F := Ideal)) W (Proc.devRef .tc main_v54) : FVec Ideal S128x128 .f32) = lift (stepC J G C) := by
  refine ⟨⟨?_, ?_, ?_, ?_⟩, ?_⟩
  · rw [← h.p]; after_results_simp
  · rw [← h.j]; after_results_simp
  · rw [← h.g]; after_results_simp
  · rw [← h.x]; after_results_simp
  · after_results_simp
    rw [h.j, h.g, hC]
    simp only [lift_neg, lift_add, lift_dot _ dot_K]
    rfl

/-- Set-up, from real factors `U`, `V` and a real input: `P = [U | V]`, `J`, `G = Pᵀ P`, and the zero matrix. -/
theorem setup (U V : Matrix (Fin 2048) (Fin 64) ℝ) (T : Fin 8 → Fin 2048 → Fin 2048 → ℝ)
    (h0 : (W (Proc.devRef .tc main_arg0) : FVec Ideal S8x2048x2048 .f32) = lift3 T)
    (h1 : (W (Proc.devRef .tc main_arg1) : FVec Ideal S2048x64 .f32) = lift U)
    (h2 : (W (Proc.devRef .tc main_arg2) : FVec Ideal S2048x64 .f32) = lift V) :
    Inv (after (segPre (F := Ideal)) W) (hcat h64 U V) Jmat ((hcat h64 U V).transpose * hcat h64 U V) T
      ∧ (after (segPre (F := Ideal)) W (Proc.devRef .tc main_v14) : FVec Ideal S128x128 .f32) = lift (0 : Matrix (Fin 128) (Fin 128) ℝ) := by
  refine ⟨⟨?_, ?_, ?_, ?_⟩, ?_⟩
  · after_results_simp
    rw [h1, h2]
    exact lift_hcat h64 _ U V
  · after_results
    rw [lift_zero bcast_S_S64x64, lift_eye (by norm_num : 64 ≤ 2 ^ 32) bcast_S_S64x64, lift_neg,
      lift_hcat h64 _ (0 : Matrix (Fin 64) (Fin 64) ℝ) 1, lift_hcat h64 _ (-(1 : Matrix (Fin 64) (Fin 64) ℝ)) 0, lift_vcat h64 _ _ _]
    rfl
  · after_results_simp
    rw [h1, h2, lift_hcat h64 _ U V, lift_transpose _ (hcat h64 U V)]
    exact lift_dot _ dot_G _ _ _
  · rw [← h0]; after_results_simp
  · after_results_simp
    exact lift_zero _

/-- The hand-over: `E = (J + C) + (J G) C` transposed, `Pᵀ`, and the input with its two leading axes merged; `P` is not written. -/
theorem handover (Pm : Matrix (Fin 2048) (Fin 128) ℝ) (J G C : Matrix (Fin 128) (Fin 128) ℝ) (T : Fin 8 → Fin 2048 → Fin 2048 → ℝ)
    (h : Inv W Pm J G T) (hC : (W (Proc.devRef .tc main_v54) : FVec Ideal S128x128 .f32) = lift C) :
    (after (segPost (F := Ideal)) W (Proc.devRef .tc main_v61) : FVec Ideal S16384x2048 .f32) = lift (flat (rfl : 8 * 2048 = 16384) T)
      ∧ (after (segPost (F := Ideal)) W (Proc.devRef .tc main_v0) : FVec Ideal S2048x128 .f32) = lift Pm
      ∧ (after (segPost (F := Ideal)) W (Proc.devRef .tc main_v59) : FVec Ideal S128x128 .f32) = lift (finalE J G C).transpose
      ∧ (after (segPost (F := Ideal)) W (Proc.devRef .tc main_v60) : FVec Ideal S128x2048 .f32) = lift Pm.transpose := by
  refine ⟨?_, ?_, ?_, ?_⟩
  · after_results_simp
    rw [← lift_flatten (rfl : 8 * 2048 = 16384) shapeCasts_S8x2048x2048_S16384x2048 T, ← h.x]
    rfl
  · rw [← h.p]; after_results_simp
  · after_results_simp
    rw [h.j, h.g, hC]
    simp only [lift_add, lift_dot _ dot_K, lift_transpose]
    rfl
  · after_results_simp
    rw [h.p]
    exact lift_transpose _ Pm

end Stretches

/-! ## The arrays the launch is handed -/

/-- On real inputs `x`, `U`, `V` the launch finds: the input with its leading axes merged, `P = [U | V]`, `Eᵀ` and
    `Pᵀ`, where `E` is the fourth round's result put through the closing combination. -/
theorem handed (m : (ℓ : Loc nD τ sig) → Buf (Elt Ideal) ℓ) (c : Dev nD)
    (U V : Matrix (Fin 2048) (Fin 64) ℝ) (T : Fin 8 → Fin 2048 → Fin 2048 → ℝ)
    (h0 : (m ((c : Thread nD τ).loc main_arg0) : FVec Ideal S8x2048x2048 .f32) = lift3 T)
    (h1 : (m ((c : Thread nD τ).loc main_arg1) : FVec Ideal S2048x64 .f32) = lift U)
    (h2 : (m ((c : Thread nD τ).loc main_arg2) : FVec Ideal S2048x64 .f32) = lift V) :
    (Cert.KernelIdeal.Gen.V m c main_v61 : FVec Ideal S16384x2048 .f32) = lift (flat (rfl : 8 * 2048 = 16384) T)
      ∧ (Cert.KernelIdeal.Gen.V m c main_v0 : FVec Ideal S2048x128 .f32) = lift (hcat h64 U V)
      ∧ (Cert.KernelIdeal.Gen.V m c main_v59 : FVec Ideal S128x128 .f32) = lift (finalE Jmat ((hcat h64 U V).transpose * hcat h64 U V)
          (stepC Jmat ((hcat h64 U V).transpose * hcat h64 U V) (stepC Jmat ((hcat h64 U V).transpose * hcat h64 U V)
          (stepC Jmat ((hcat h64 U V).transpose * hcat h64 U V) (stepC Jmat ((hcat h64 U V).transpose * hcat h64 U V) 0))))).transpose
      ∧ (Cert.KernelIdeal.Gen.V m c main_v60 : FVec Ideal S128x2048 .f32) = lift (hcat h64 U V).transpose := by
  have e : ∀ b : Ref sig .tc, Cert.KernelIdeal.Gen.V m c b = after (segPost (F := Ideal)) (after (segIt4 (F := Ideal)) (after (segIt3 (F := Ideal))
      (after (segIt2 (F := Ideal)) (after (segIt1 (F := Ideal)) (after (segPre (F := Ideal)) (fun b => m (c, b))))))) (Proc.devRef .tc b) := by
    intro b
    show after (List.flatten [hostOps0]) (fun b => m (c, b)) (Proc.devRef .tc b) = _
    rw [List.flatten_cons, List.flatten_nil, List.append_nil, hostOps0_split, StableHlo.after_append, StableHlo.after_append,
      StableHlo.after_append, StableHlo.after_append, StableHlo.after_append]
  obtain ⟨i0, c0⟩ := setup (fun b => m (c, b)) U V T h0 h1 h2
  obtain ⟨i1, c1⟩ := round1 _ _ _ _ _ T i0 c0
  obtain ⟨i2, c2⟩ := round2 _ _ _ _ _ T i1 c1
  obtain ⟨i3, c3⟩ := round3 _ _ _ _ _ T i2 c2
  obtain ⟨i4, c4⟩ := round4 _ _ _ _ _ T i3 c3
  obtain ⟨r61, r0, r59, r60⟩ := handover _ _ _ _ _ T i4 c4
  exact ⟨(e main_v61).trans r61, (e main_v0).trans r0, (e main_v59).trans r59, (e main_v60).trans r60⟩

end Cert.KHost

end
-- ==== Proof.KernelBlock.lean ====
/-
  The kernel's launch on real inputs. The grid has sixteen points; point `t` stages rows `1024 t … 1024 t + 1023` of the
  flattened input and the three small matrices whole, computes `X + ((X P) E) Q` on its block of rows, and writes that block
  of the output back. Multiplying on the right acts row by row, so the sixteen blocks written are the blocks of
  `X + ((X P) E) Q` for the whole input `X`, and they tile the output array: it ends holding that matrix. The one host
  line after the launch splits the row axis in two.
-/
import proofs.«158582_j69630009803034_2_alg».proof.Proof.Gen.KernelIdeal.Frame
import proofs.«158582_j69630009803034_2_alg».proof.Proof.Lift
import proofs.«158582_j69630009803034_2_alg».proof.Proof.LiftLayout
import Idealize.ShloMosaic.Lib.Pipeline.Value
import Idealize.ShloMosaic.Lib.StableHlo.Run

set_option maxRecDepth 16384

noncomputable section

namespace Cert.KBlock

open Cert.KernelIdeal Cert.KernelIdeal.Gen Idealize.ShloMosaic Idealize.ShloMosaic.TcCoe Idealize.SL.Sem
open Idealize.ShloMosaic.Pipeline (Dat)
open Idealize.ShloMosaic.ValueIdx
open Cert.Lift

variable (m : (ℓ : Loc nD τ sig) → Buf (Elt Ideal) ℓ)

theorem hz : (![0, 0] : Fin 2 → Nat) = fun _ => 0 := funext fun a => by fin_cases a <;> rfl

/-- The windows' block indices, decided over the sixteen grid points: the input rows and the output rows move with the
    point, the three small matrices stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A grid point is below sixteen. -/
theorem point_lt (t : Fin cfg0.N) : t.val < 16 := lt_of_lt_of_eq t.isLt N_0

/-- The rows of the flattened input that point `t` stages. -/
def rowsAt (t : Fin cfg0.N) : Fin 1024 → Fin 16384 :=
  fun r => ⟨t.val * 1024 + r.val, by have := point_lt t; have := r.isLt; omega⟩

/-- Equal row and column numbers give equal entries. -/
theorem entry_congr {a b : ℕ} (M : Matrix (Fin a) (Fin b) ℝ) {p p' : Fin a} {q q' : Fin b}
    (hp : p.val = p'.val) (hq : q.val = q'.val) : ((M p q : ℝ) : EReal) = ((M p' q' : ℝ) : EReal) := by
  rw [Fin.ext hp, Fin.ext hq]

/-! ## Each window's block at a point, for real arrays -/

/-- Point `t`'s block of a real `16384 × 2048` array through the input window is its rows `rowsAt t`. -/
theorem read_blk0_lift (R : Matrix (Fin 16384) (Fin 2048) ℝ) (t : Fin cfg0.N) (y : S1024x2048.Idx) :
    (lift R : FVec Ideal S16384x2048 .f32) (((cfg0.win 0).blk t).view.emb y)
      = (lift (R.submatrix (rowsAt t) id) : FVec Ideal S1024x2048 .f32) y := by
  obtain ⟨e0, e1, -⟩ := idx_facts t
  rw [lift_apply, lift_apply]
  show ((R _ _ : ℝ) : EReal) = ((R (rowsAt t ⟨(y 0).val, idx2_lt0 y⟩) ⟨(y 1).val, idx2_lt1 y⟩ : ℝ) : EReal)
  refine entry_congr R ?_ ?_
  · show win0_0.index t (0 : Fin 2) * 1024 + 1 * (y 0).val = t.val * 1024 + (y 0).val
    rw [e0]; omega
  · show win0_0.index t (1 : Fin 2) * 2048 + 1 * (y 1).val = (y 1).val
    rw [e1]; omega

/-- Point `t`'s block of a real `16384 × 2048` array through the output window is the same rows. -/
theorem read_blk4_lift (R : Matrix (Fin 16384) (Fin 2048) ℝ) (t : Fin cfg0.N) (y : S1024x2048.Idx) :
    (lift R : FVec Ideal S16384x2048 .f32) (((cfg0.win 4).blk t).view.emb y)
      = (lift (R.submatrix (rowsAt t) id) : FVec Ideal S1024x2048 .f32) y := by
  obtain ⟨-, -, -, -, -, -, -, -, e0, e1⟩ := idx_facts t
  rw [lift_apply, lift_apply]
  show ((R _ _ : ℝ) : EReal) = ((R (rowsAt t ⟨(y 0).val, idx2_lt0 y⟩) ⟨(y 1).val, idx2_lt1 y⟩ : ℝ) : EReal)
  refine entry_congr R ?_ ?_
  · show win0_4.index t (0 : Fin 2) * 1024 + 1 * (y 0).val = t.val * 1024 + (y 0).val
    rw [e0]; omega
  · show win0_4.index t (1 : Fin 2) * 2048 + 1 * (y 1).val = (y 1).val
    rw [e1]; omega

/-- The three small matrices are staged whole: the block at any point is the array. -/
theorem read_blk1_lift (R : Matrix (Fin 2048) (Fin 128) ℝ) (t : Fin cfg0.N) (y : S2048x128.Idx) :
    (lift R : FVec Ideal S2048x128 .f32) (((cfg0.win 1).blk t).view.emb y) = (lift R : FVec Ideal S2048x128 .f32) y := by
  obtain ⟨-, -, e0, e1, -⟩ := idx_facts t
  rw [lift_apply, lift_apply]
  refine entry_congr R ?_ ?_
  · show win0_1.index t (0 : Fin 2) * 2048 + 1 * (y 0).val = (y 0).val
    rw [e0]; omega
  · show win0_1.index t (1 : Fin 2) * 128 + 1 * (y 1).val = (y 1).val
    rw [e1]; omega

theorem read_blk2_lift (R : Matrix (Fin 128) (Fin 128) ℝ) (t : Fin cfg0.N) (y : S128x128.Idx) :
    (lift R : FVec Ideal S128x128 .f32) (((cfg0.win 2).blk t).view.emb y) = (lift R : FVec Ideal S128x128 .f32) y := by
  obtain ⟨-, -, -, -, e0, e1, -⟩ := idx_facts t
  rw [lift_apply, lift_apply]
  refine entry_congr R ?_ ?_
  · show win0_2.index t (0 : Fin 2) * 128 + 1 * (y 0).val = (y 0).val
    rw [e0]; omega
  · show win0_2.index t (1 : Fin 2) * 128 + 1 * (y 1).val = (y 1).val
    rw [e1]; omega

theorem read_blk3_lift (R : Matrix (Fin 128) (Fin 2048) ℝ) (t : Fin cfg0.N) (y : S128x2048.Idx) :
    (lift R : FVec Ideal S128x2048 .f32) (((cfg0.win 3).blk t).view.emb y) = (lift R : FVec Ideal S128x2048 .f32) y := by
  obtain ⟨-, -, -, -, -, -, e0, e1, -⟩ := idx_facts t
  rw [lift_apply, lift_apply]
  refine entry_congr R ?_ ?_
  · show win0_3.index t (0 : Fin 2) * 128 + 1 * (y 0).val = (y 0).val
    rw [e0]; omega
  · show win0_3.index t (1 : Fin 2) * 2048 + 1 * (y 1).val = (y 1).val
    rw [e1]; omega

/-- The input window's block at point `t`, when the staged array is the real matrix `Xf`. -/
theorem iblk0_eq (c : Dev nD) (Xf : Matrix (Fin 16384) (Fin 2048) ℝ)
    (hX : (V m c main_v61 : FVec Ideal S16384x2048 .f32) = lift Xf) (t : Fin cfg0.N) :
    (iblk m c 0 t : FVec Ideal S1024x2048 .f32) = lift (Xf.submatrix (rowsAt t) id) := by
  funext y
  show (V m c main_v61 : FVec Ideal S16384x2048 .f32) (((cfg0.win 0).blk t).view.emb y) = _
  rw [hX]
  exact read_blk0_lift Xf t y

theorem iblk1_eq (c : Dev nD) (Pm : Matrix (Fin 2048) (Fin 128) ℝ)
    (hP : (V m c main_v0 : FVec Ideal S2048x128 .f32) = lift Pm) (t : Fin cfg0.N) :
    (iblk m c 1 t : FVec Ideal S2048x128 .f32) = lift Pm := by
  funext y
  show (V m c main_v0 : FVec Ideal S2048x128 .f32) (((cfg0.win 1).blk t).view.emb y) = _
  rw [hP]
  exact read_blk1_lift Pm t y

theorem iblk2_eq (c : Dev nD) (E : Matrix (Fin 128) (Fin 128) ℝ)
    (hE : (V m c main_v59 : FVec Ideal S128x128 .f32) = lift E) (t : Fin cfg0.N) :
    (iblk m c 2 t : FVec Ideal S128x128 .f32) = lift E := by
  funext y
  show (V m c main_v59 : FVec Ideal S128x128 .f32) (((cfg0.win 2).blk t).view.emb y) = _
  rw [hE]
  exact read_blk2_lift E t y

theorem iblk3_eq (c : Dev nD) (Q : Matrix (Fin 128) (Fin 2048) ℝ)
    (hQ : (V m c main_v60 : FVec Ideal S128x2048 .f32) = lift Q) (t : Fin cfg0.N) :
    (iblk m c 3 t : FVec Ideal S128x2048 .f32) = lift Q := by
  funext y
  show (V m c main_v60 : FVec Ideal S128x2048 .f32) (((cfg0.win 3).blk t).view.emb y) = _
  rw [hQ]
  exact read_blk3_lift Q t y

/-! ## The body's arithmetic on real blocks -/

/-- The three printed contraction records are the plain matrix product's. -/
theorem dot1_eq : dot_S1024x2048_S2048x128_S1024x128_1_0_0_1_n_n = DotDims.plain 1024 2048 128 := rfl
theorem dot2_eq : dot_S1024x128_S128x128_S1024x128_1_0_0_1_n_n = DotDims.plain 1024 128 128 := rfl
theorem dot3_eq : dot_S1024x128_S128x2048_S1024x2048_1_0_0_1_n_n = DotDims.plain 1024 128 2048 := rfl

/-- On real blocks the body computes `X + ((X P) E) Q`. -/
theorem pay_lift (X : Matrix (Fin 1024) (Fin 2048) ℝ) (Pm : Matrix (Fin 2048) (Fin 128) ℝ)
    (E : Matrix (Fin 128) (Fin 128) ℝ) (Q : Matrix (Fin 128) (Fin 2048) ℝ) :
    k0_pay1 (F := Ideal) (lift X) (lift Pm) (lift E) (lift Q) = lift (X + ((X * Pm) * E) * Q) := by
  unfold k0_pay1
  simp only [shapeCast_self]
  rw [lift_matmul _ dot1_eq, lift_matmul _ dot2_eq, lift_matmul _ dot3_eq, lift_add]

/-- Taking rows commutes with multiplying on the right. -/
theorem submatrix_rows_mul {a b c d : ℕ} (A : Matrix (Fin a) (Fin b) ℝ) (B : Matrix (Fin b) (Fin c) ℝ)
    (f : Fin d → Fin a) : (A * B).submatrix f id = A.submatrix f id * B := by
  ext i j
  simp only [Matrix.submatrix_apply, Matrix.mul_apply, id]

/-- So the rows `f` of `X + ((X P) E) Q` are that expression of the rows `f` of `X`. -/
theorem submatrix_rows_update {a d : ℕ} (X : Matrix (Fin a) (Fin 2048) ℝ) (Pm : Matrix (Fin 2048) (Fin 128) ℝ)
    (E : Matrix (Fin 128) (Fin 128) ℝ) (Q : Matrix (Fin 128) (Fin 2048) ℝ) (f : Fin d → Fin a) :
    (X + ((X * Pm) * E) * Q).submatrix f id
      = X.submatrix f id + (((X.submatrix f id) * Pm) * E) * Q := by
  have hadd : ∀ A B : Matrix (Fin a) (Fin 2048) ℝ, (A + B).submatrix f id = A.submatrix f id + B.submatrix f id :=
    fun A B => rfl
  rw [hadd, submatrix_rows_mul, submatrix_rows_mul, submatrix_rows_mul]

/-! ## What each point writes back, and the array after the launch -/

section Region
variable (c : Dev nD) (Xf : Matrix (Fin 16384) (Fin 2048) ℝ) (Pm : Matrix (Fin 2048) (Fin 128) ℝ)
  (E : Matrix (Fin 128) (Fin 128) ℝ) (Q : Matrix (Fin 128) (Fin 2048) ℝ)

/-- Point `t` writes back its rows of `Xf + ((Xf P) E) Q`. -/
theorem flushed_eq (hX : (V m c main_v61 : FVec Ideal S16384x2048 .f32) = lift Xf)
    (hP : (V m c main_v0 : FVec Ideal S2048x128 .f32) = lift Pm)
    (hE : (V m c main_v59 : FVec Ideal S128x128 .f32) = lift E)
    (hQ : (V m c main_v60 : FVec Ideal S128x2048 .f32) = lift Q) (t : Fin cfg0.N) :
    (dats m 0 c).flushed 4 t
      = ((cfg0.win 4).blk t).view.read (Elt Ideal) (lift (Xf + ((Xf * Pm) * E) * Q)) := by
  show (cfg0.win 4).cut (grid0.coords t) ((dats m 0 c).after 4 t) = _
  rw [after0_4]
  unfold out0_4
  rw [View.canon_unit_zero hz]
  simp only [View.ld_unit_zero (S := S1024x2048) hz, View.ld_unit_zero (S := S2048x128) hz,
    View.ld_unit_zero (S := S128x128) hz, View.ld_unit_zero (S := S128x2048) hz]
  rw [iblk0_eq m c Xf hX t, iblk1_eq m c Pm hP t, iblk2_eq m c E hE t, iblk3_eq m c Q hQ t, pay_lift,
    ← submatrix_rows_update]
  funext y
  exact (read_blk4_lift (Xf + ((Xf * Pm) * E) * Q) t y).symm

/-- An index of the output array is in point `t`'s block iff each coordinate is in the block's range on its axis. -/
theorem mem_blk (t : Fin cfg0.N) (i : S16384x2048.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v62).slice (win0_4.rect t)).set ↔ _
  rw [View.set_slice_whole, Rect.mem_set_unit]
  exact Iff.rfl

/-- Every index of the output array is in the block of the point its row number divided by 1024 names. -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 16 := N_0
  let t : Fin cfg0.N := ⟨(i 0).val / 1024, by rw [hN]; omega⟩
  obtain ⟨-, -, -, -, -, -, -, -, e0, e1⟩ := idx_facts t
  have ht : t.val = (i 0).val / 1024 := rfl
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 2048 ≤ (i 1).val ∧ (i 1).val < win0_4.index t (1 : Fin 2) * 2048 + 2048
    rw [e1]; omega

/-- THE OUTPUT ARRAY AFTER THE LAUNCH, for real inputs `Xf`, `P`, `E`, `Q`: the real matrix `Xf + ((Xf P) E) Q`. -/
theorem region_array (hX : (V m c main_v61 : FVec Ideal S16384x2048 .f32) = lift Xf)
    (hP : (V m c main_v0 : FVec Ideal S2048x128 .f32) = lift Pm)
    (hE : (V m c main_v59 : FVec Ideal S128x128 .f32) = lift E)
    (hQ : (V m c main_v60 : FVec Ideal S128x2048 .f32) = lift Q) :
    ((dats m 0 c).arrAt 4 cfg0.N : FVec Ideal S16384x2048 .f32) = lift (Xf + ((Xf * Pm) * E) * Q) :=
  (dats m 0 c).arrAt_eq_of_cover 4 (lift (Xf + ((Xf * Pm) * E) * Q))
    (fun t _ => flushed_eq m c Xf Pm E Q hX hP hE hQ t) cover

end Region

/-! ## The host line after the launch -/

/-- THE RESULT ARRAY: the output of the launch with its row axis split into `8 × 2048`. -/
theorem result_array (c : Dev nD) (Xf : Matrix (Fin 16384) (Fin 2048) ℝ) (Pm : Matrix (Fin 2048) (Fin 128) ℝ)
    (E : Matrix (Fin 128) (Fin 128) ℝ) (Q : Matrix (Fin 128) (Fin 2048) ℝ)
    (hX : (V m c main_v61 : FVec Ideal S16384x2048 .f32) = lift Xf)
    (hP : (V m c main_v0 : FVec Ideal S2048x128 .f32) = lift Pm)
    (hE : (V m c main_v59 : FVec Ideal S128x128 .f32) = lift E)
    (hQ : (V m c main_v60 : FVec Ideal S128x2048 .f32) = lift Q) :
    (Pipeline.afterTail₀ cfgs (dats m) 0 (V0 m) [hostOps1] c main_v63 : FVec Ideal S8x2048x2048 .f32)
      = lift3 (unflat (rfl : 8 * 2048 = 16384) (Xf + ((Xf * Pm) * E) * Q)) := by
  unfold Pipeline.afterTail₀
  show StableHlo.after hostOps1 _ (Proc.devRef .tc main_v63) = _
  after_results
  have hW : Pipeline.withArrays (cfgs 0).spec c (V0 m c) (fun w => (dats m 0 c).arrAt w (cfgs 0).N)
      (Proc.devRef .tc main_v62) = (lift (Xf + ((Xf * Pm) * E) * Q) : FVec Ideal S16384x2048 .f32) :=
    (Pipeline.withArrays_arr spec0 launch0.win.arr_inj c _ _ 4).trans (region_array m c Xf Pm E Q hX hP hE hQ)
  exact (congrArg (fun v : FVec Ideal S16384x2048 .f32 =>
      shapeCast S8x2048x2048 v shapeCasts_S16384x2048_S8x2048x2048) hW).trans
    (lift_unflatten (rfl : 8 * 2048 = 16384) shapeCasts_S16384x2048_S8x2048x2048 (Xf + ((Xf * Pm) * E) * Q))

end Cert.KBlock

end
-- ==== Proof.RefValue.lean ====
/-
  The reference program on real inputs, one float stage at a time: each stage's array is the array of a real matrix.

  From real matrices `U V : 2048 × 64` the program forms `A = U Vᵀ − V Uᵀ`, the identity `1` (row number compared with
  column number), `B = 1 − A`, four Newton–Schulz steps `X ↦ X (2·1 − B X)` from `X = 1`, and `W = (1 + A) X₄`; its
  result contracts the last axis of a rank-3 input with the second axis of `W`. Every operation met on the way (transpose,
  product, sum, difference, twice the identity) maps arrays of real matrices to the array of the corresponding real
  matrix, so no infinity enters and each stage is read off by naming its matrix.
-/
import proofs.«158582_j69630009803034_2_alg».proof.Proof.Gen.ReferenceIdeal.Read
import proofs.«158582_j69630009803034_2_alg».proof.Proof.Lift
import proofs.«158582_j69630009803034_2_alg».proof.Proof.NSAlgebra
import proofs.«158582_j69630009803034_2_alg».proof.Proof.LiftLayout

noncomputable section

namespace Cert.RefValue

open Idealize.ShloMosaic Cert.ReferenceIdeal Cert.ReferenceIdeal.Read Cert.Lift Matrix

/-- `A = U Vᵀ − V Uᵀ`. -/
def Aof (U V : Matrix (Fin 2048) (Fin 64) ℝ) : Matrix (Fin 2048) (Fin 2048) ℝ := U * Vᵀ - V * Uᵀ

/-- `B = 1 − A`, the matrix the iteration inverts. -/
def Bof (U V : Matrix (Fin 2048) (Fin 64) ℝ) : Matrix (Fin 2048) (Fin 2048) ℝ := 1 - Aof U V

/-- The iterate after one, two, three and four Newton–Schulz steps from the identity. -/
def X1of (U V : Matrix (Fin 2048) (Fin 64) ℝ) : Matrix (Fin 2048) (Fin 2048) ℝ := Cert.NS.stepX (Bof U V) 1
def X2of (U V : Matrix (Fin 2048) (Fin 64) ℝ) : Matrix (Fin 2048) (Fin 2048) ℝ := Cert.NS.stepX (Bof U V) (X1of U V)
def X3of (U V : Matrix (Fin 2048) (Fin 64) ℝ) : Matrix (Fin 2048) (Fin 2048) ℝ := Cert.NS.stepX (Bof U V) (X2of U V)
def X4of (U V : Matrix (Fin 2048) (Fin 64) ℝ) : Matrix (Fin 2048) (Fin 2048) ℝ := Cert.NS.stepX (Bof U V) (X3of U V)

/-- `W = (1 + A) X₄`. -/
def Wof (U V : Matrix (Fin 2048) (Fin 64) ℝ) : Matrix (Fin 2048) (Fin 2048) ℝ := (1 + Aof U V) * X4of U V

/-- `W` written out: `(1 + A)` times four steps for `1 − A` from the identity. -/
theorem Wof_eq (U V : Matrix (Fin 2048) (Fin 64) ℝ) :
    Wof U V = (1 + (U * Vᵀ - V * Uᵀ)) * Cert.NS.stepX (1 - (U * Vᵀ - V * Uᵀ)) (Cert.NS.stepX (1 - (U * Vᵀ - V * Uᵀ))
      (Cert.NS.stepX (1 - (U * Vᵀ - V * Uᵀ)) (Cert.NS.stepX (1 - (U * Vᵀ - V * Uᵀ)) 1))) := rfl

/-- The program's record of a `2048 × 64` by `64 × 2048` product is the plain one. -/
theorem dot_thin_eq : dot_S2048x64_S64x2048_S2048x2048_1_0_0_1_n_n = DotDims.plain 2048 64 2048 := rfl

/-- The program's record of a `2048 × 2048` by `2048 × 2048` product is the plain one. -/
theorem dot_square_eq : dot_S2048x2048_S2048x2048_S2048x2048_1_0_0_1_n_n = DotDims.plain 2048 2048 2048 := rfl

section Stages

variable (U V : Matrix (Fin 2048) (Fin 64) ℝ)

/-! ## `A = U Vᵀ − V Uᵀ` -/

theorem ref_v0 : val_main_v0 (F := Ideal) (lift V) = lift Vᵀ := by
  unfold val_main_v0
  exact lift_transpose _ V

theorem ref_v1 : val_main_v1 (F := Ideal) (lift U) (lift V) = lift (U * Vᵀ) := by
  unfold val_main_v1
  rw [ref_v0]
  exact lift_dot _ dot_thin_eq none U Vᵀ

theorem ref_v2 : val_main_v2 (F := Ideal) (lift U) = lift Uᵀ := by
  unfold val_main_v2
  exact lift_transpose _ U

theorem ref_v3 : val_main_v3 (F := Ideal) (lift U) (lift V) = lift (V * Uᵀ) := by
  unfold val_main_v3
  rw [ref_v2]
  exact lift_dot _ dot_thin_eq none V Uᵀ

theorem ref_v4 : val_main_v4 (F := Ideal) (lift U) (lift V) = lift (Aof U V) := by
  unfold val_main_v4
  rw [ref_v1, ref_v3]
  exact lift_sub _ _

/-! ## The identity, `B = 1 − A`, and twice the identity -/

theorem ref_v10 : val_main_v10 (F := Ideal) = lift (1 : Matrix (Fin 2048) (Fin 2048) ℝ) := by
  unfold val_main_v10 val_main_v9 val_main_v8 val_main_v7 val_main_v6 val_main_v5 val_main_c
  exact lift_eye (by norm_num) _

theorem ref_v11 : val_main_v11 (F := Ideal) (lift U) (lift V) = lift (Bof U V) := by
  unfold val_main_v11
  rw [ref_v10, ref_v4]
  exact lift_sub _ _

theorem ref_v13 : val_main_v13 (F := Ideal) = lift ((2 : ℝ) • (1 : Matrix (Fin 2048) (Fin 2048) ℝ)) := by
  unfold val_main_v13 val_main_v12 val_main_cst
  rw [ref_v10]
  exact lift_two_mul _ 1

theorem ref_v18 : val_main_v18 (F := Ideal) = lift ((2 : ℝ) • (1 : Matrix (Fin 2048) (Fin 2048) ℝ)) := by
  unfold val_main_v18 val_main_v17 val_main_cst_0
  rw [ref_v10]
  exact lift_two_mul _ 1

theorem ref_v23 : val_main_v23 (F := Ideal) = lift ((2 : ℝ) • (1 : Matrix (Fin 2048) (Fin 2048) ℝ)) := by
  unfold val_main_v23 val_main_v22 val_main_cst_1
  rw [ref_v10]
  exact lift_two_mul _ 1

theorem ref_v28 : val_main_v28 (F := Ideal) = lift ((2 : ℝ) • (1 : Matrix (Fin 2048) (Fin 2048) ℝ)) := by
  unfold val_main_v28 val_main_v27 val_main_cst_2
  rw [ref_v10]
  exact lift_two_mul _ 1

/-! ## Four Newton–Schulz steps: `B X`, then `2·1 − B X`, then `X (2·1 − B X)` -/

theorem ref_v14 : val_main_v14 (F := Ideal) (lift U) (lift V) = lift (Bof U V * 1) := by
  unfold val_main_v14
  rw [ref_v11, ref_v10]
  exact lift_dot _ dot_square_eq none _ _

theorem ref_v15 : val_main_v15 (F := Ideal) (lift U) (lift V) = lift ((2 : ℝ) • 1 - Bof U V * 1) := by
  unfold val_main_v15
  rw [ref_v13, ref_v14]
  exact lift_sub _ _

theorem ref_v16 : val_main_v16 (F := Ideal) (lift U) (lift V) = lift (X1of U V) := by
  unfold val_main_v16
  rw [ref_v10, ref_v15]
  exact lift_dot _ dot_square_eq none _ _

theorem ref_v19 : val_main_v19 (F := Ideal) (lift U) (lift V) = lift (Bof U V * X1of U V) := by
  unfold val_main_v19
  rw [ref_v11, ref_v16]
  exact lift_dot _ dot_square_eq none _ _

theorem ref_v20 : val_main_v20 (F := Ideal) (lift U) (lift V) = lift ((2 : ℝ) • 1 - Bof U V * X1of U V) := by
  unfold val_main_v20
  rw [ref_v18, ref_v19]
  exact lift_sub _ _

theorem ref_v21 : val_main_v21 (F := Ideal) (lift U) (lift V) = lift (X2of U V) := by
  unfold val_main_v21
  rw [ref_v16, ref_v20]
  exact lift_dot _ dot_square_eq none _ _

theorem ref_v24 : val_main_v24 (F := Ideal) (lift U) (lift V) = lift (Bof U V * X2of U V) := by
  unfold val_main_v24
  rw [ref_v11, ref_v21]
  exact lift_dot _ dot_square_eq none _ _

theorem ref_v25 : val_main_v25 (F := Ideal) (lift U) (lift V) = lift ((2 : ℝ) • 1 - Bof U V * X2of U V) := by
  unfold val_main_v25
  rw [ref_v23, ref_v24]
  exact lift_sub _ _

theorem ref_v26 : val_main_v26 (F := Ideal) (lift U) (lift V) = lift (X3of U V) := by
  unfold val_main_v26
  rw [ref_v21, ref_v25]
  exact lift_dot _ dot_square_eq none _ _

theorem ref_v29 : val_main_v29 (F := Ideal) (lift U) (lift V) = lift (Bof U V * X3of U V) := by
  unfold val_main_v29
  rw [ref_v11, ref_v26]
  exact lift_dot _ dot_square_eq none _ _

theorem ref_v30 : val_main_v30 (F := Ideal) (lift U) (lift V) = lift ((2 : ℝ) • 1 - Bof U V * X3of U V) := by
  unfold val_main_v30
  rw [ref_v28, ref_v29]
  exact lift_sub _ _

theorem ref_v31 : val_main_v31 (F := Ideal) (lift U) (lift V) = lift (X4of U V) := by
  unfold val_main_v31
  rw [ref_v26, ref_v30]
  exact lift_dot _ dot_square_eq none _ _

/-! ## `W = (1 + A) X₄` -/

theorem ref_v32 : val_main_v32 (F := Ideal) (lift U) (lift V) = lift (1 + Aof U V) := by
  unfold val_main_v32
  rw [ref_v10, ref_v4]
  exact lift_add _ _

theorem ref_v33 : val_main_v33 (F := Ideal) (lift U) (lift V) = lift (Wof U V) := by
  unfold val_main_v33
  rw [ref_v32, ref_v31]
  exact lift_dot _ dot_square_eq none _ _

/-- The reference's `W` on real inputs, written out. -/
theorem ref_W : val_main_v33 (F := Ideal) (lift U) (lift V)
    = lift ((1 + (U * Vᵀ - V * Uᵀ)) * Cert.NS.stepX (1 - (U * Vᵀ - V * Uᵀ)) (Cert.NS.stepX (1 - (U * Vᵀ - V * Uᵀ))
        (Cert.NS.stepX (1 - (U * Vᵀ - V * Uᵀ)) (Cert.NS.stepX (1 - (U * Vᵀ - V * Uᵀ)) 1)))) :=
  ref_v33 U V

end Stages

/-! ## The result: the input's last axis contracted with `W`'s second axis -/

/-- The reference's result on real inputs: entry `(b, s, o)` is `∑ i, T b s i · W o i`. -/
theorem ref_result (T : Fin 8 → Fin 2048 → Fin 2048 → ℝ) (U V : Matrix (Fin 2048) (Fin 64) ℝ) :
    val_main_v34 (F := Ideal) (lift3 T) (lift U) (lift V)
      = lift3 (fun b s o => ∑ i : Fin 2048, T b s i * Wof U V o i) := by
  funext j
  rw [val_main_v34_apply, ref_v33]
  show ∑ k : Fin 2048, lift3 T (lidx_main_v34 j k) * lift (Wof U V) (ridx_main_v34 j k)
      = ((∑ i : Fin 2048, T ⟨(j 0).val, idx3_lt0 j⟩ ⟨(j 1).val, idx3_lt1 j⟩ i * Wof U V ⟨(j 2).val, idx3_lt2 j⟩ i : ℝ) : EReal)
  rw [coe_sum]
  refine Finset.sum_congr rfl fun k _ => ?_
  rw [EReal.coe_mul]
  rfl

end Cert.RefValue

end
-- ==== Proof.Finite.lean ====
/-
  From the precondition "every input entry has absolute value below +∞" to "every input entry is a real number".

  The precondition is the one-bit array
      (all |x0| < +∞) & (all |x1| < +∞) & (all |x2| < +∞),
  each "all" a reduction by `and` over every axis from the initial bit 1, each comparison an ordered `<` of the
  absolute value against the broadcast of the pattern 0x7F800000. At the extended reals that pattern is ⊤, the absolute
  value of `a` is `max a (-a)`, and `max a (-a) < ⊤` excludes both `a = ⊤` and `a = ⊥`; what is left of an extended real
  is a real.
-/
import proofs.«158582_j69630009803034_2_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.IdealHost

namespace Cert.Finite

open Idealize.ShloMosaic
open Idealize.ShloMosaic.ValueIdx

/-- The f32 pattern `0x7F800000` (exponent field all ones, fraction zero, sign clear) is `+∞`. -/
theorem ofBits_inf_f32 : Ideal.ofBits .f32 0x7F800000#32 = (⊤ : EReal) := by
  simp [Ideal.ofBits, Ideal.ieee]

/-- An extended real whose absolute value `max a (-a)` is below `⊤` is a real: `a < ⊤` excludes `⊤`, and `-a < ⊤`
    excludes `⊥`. -/
theorem real_of_abs_lt_top (a : EReal) (h : max a (-a) < ⊤) : ∃ r : ℝ, a = ((r : ℝ) : EReal) := by
  obtain ⟨h1, h2⟩ := max_lt_iff.1 h
  induction a using EReal.rec with
  | bot => exact absurd h2 (by simp)
  | coe r => exact ⟨r, rfl⟩
  | top => exact absurd h1 (by simp)

/-- A one-bit word made from a Boolean is 1 exactly when the Boolean is true. -/
theorem ofBool_eq_one {b : Bool} : BitVec.ofBool b = 1#1 ↔ b = true := by cases b <;> decide

/-- The element fact, at any shape: where the ordered comparison `|x i| < (the broadcast pattern of +∞)` gives the bit 1,
    the entry `x i` is a real. -/
theorem real_of_cmp {s : Shape} (hb : (⟨0, ![]⟩ : Shape).BroadcastsInDim s ![]) (x : FVec Ideal s .f32) (i : s.Idx)
    (h : cmpf .olt (Host.absf x) (broadcastInDim s ![] hb (constant ⟨0, ![]⟩ .f32 0x7F800000#32)) i = 1#1) :
    ∃ r : ℝ, x i = ((r : ℝ) : EReal) := by
  have h' : Ideal.cmp .olt (max (x i) (-(x i))) (Ideal.ofBits .f32 0x7F800000#32) = 1#1 := by
    have e := broadcastInDim_scalar_apply hb (constant (F := Ideal) ⟨0, ![]⟩ .f32 0x7F800000#32) i
    unfold cmpf at h
    rw [e] at h
    exact h
  rw [ofBits_inf_f32] at h'
  unfold Ideal.cmp at h'
  exact real_of_abs_lt_top (x i) (of_decide_eq_true (ofBool_eq_one.1 h'))

/-- A rank-0 shape has one index. -/
instance subsingleton_S_Idx : Subsingleton Cert.Pre_finite_inputs.S_.Idx := ⟨fun a b => funext fun d => d.elim0⟩

/-- Under the precondition every entry of every input is a real number. -/
theorem real_of_pre [Cert.Pre_finite_inputs.Facts]
    (x0 : FVec Ideal Cert.Pre_finite_inputs.S8x2048x2048 .f32) (x1 x2 : FVec Ideal Cert.Pre_finite_inputs.S2048x64 .f32)
    (h : Cert.Pre_finite_inputs.fn (F := Ideal) x0 x1 x2 = fun _ => 1#1) :
    (∀ i, ∃ r : ℝ, x0 i = ((r : ℝ) : EReal)) ∧ (∀ i, ∃ r : ℝ, x1 i = ((r : ℝ) : EReal))
      ∧ (∀ i, ∃ r : ℝ, x2 i = ((r : ℝ) : EReal)) := by
  have h0 := congrFun h ix0
  unfold Cert.Pre_finite_inputs.fn at h0
  dsimp only [andi] at h0
  obtain ⟨h01, h2⟩ := IntOp.andi_eq_one.1 h0
  obtain ⟨h0', h1⟩ := IntOp.andi_eq_one.1 h01
  refine ⟨fun i => ?_, fun i => ?_, fun i => ?_⟩
  · exact real_of_cmp _ x0 i (Host.reduce_andi_all _ _ _ _ _ h0' i)
  · exact real_of_cmp _ x1 i (Host.reduce_andi_all _ _ _ _ _ h1 i)
  · exact real_of_cmp _ x2 i (Host.reduce_andi_all _ _ _ _ _ h2 i)

end Cert.Finite
-- ==== Proof.Bridge.lean ====
/-
  The bridge between the two programs' values on real inputs.

  First, an array of extended reals all of whose entries are real numbers is the array of a real matrix (of a real
  three-axis table), so the finiteness precondition turns the three inputs into a table `T` and two matrices `U`, `V`.
  Second, the identity between real tables that joins the two programs: flatten `T` to a `16384 × 2048` matrix `x`,
  form `x + ((x P) Eᵀ) Pᵀ` with `P = [U V]` and `E` the `128 × 128` core of four Newton–Schulz steps carried out on cores,
  unflatten; the outcome is the table `(b, s, o) ↦ ∑ᵢ T b s i · W o i` with `W = (1 + A) X₄` the dense result, because
  `x Wᵀ = x + ((x P) Eᵀ) Pᵀ`.
-/
import proofs.«158582_j69630009803034_2_alg».proof.Proof.Lift
import proofs.«158582_j69630009803034_2_alg».proof.Proof.LiftLayout
import proofs.«158582_j69630009803034_2_alg».proof.Proof.NSAlgebra
import proofs.«158582_j69630009803034_2_alg».proof.Proof.NSBlock
import proofs.«158582_j69630009803034_2_alg».proof.Proof.RefValue
import proofs.«158582_j69630009803034_2_alg».proof.Proof.Finite

noncomputable section

namespace Cert.Bridge

open Idealize.ShloMosaic Idealize.ShloMosaic.ValueIdx Cert.Lift Cert.NS Matrix

/-! ## Arrays of real numbers are arrays of real matrices -/

/-- A two-axis array whose entries are all real is the array of the matrix of those reals. -/
theorem exists_lift {a b : ℕ} (x : FVec Ideal ⟨2, ![a, b]⟩ .f32) (h : ∀ i, ∃ r : ℝ, x i = ((r : ℝ) : EReal)) :
    ∃ M : Matrix (Fin a) (Fin b) ℝ, x = lift M := by
  choose f hf using h
  refine ⟨Matrix.of fun p q => f (ix2 p q), funext fun i => ?_⟩
  have e : i = ix2 (⟨(i 0).val, idx2_lt0 i⟩ : Fin a) (⟨(i 1).val, idx2_lt1 i⟩ : Fin b) := eq_ix2 i
  rw [hf i]
  exact congrArg (fun t => ((f t : ℝ) : EReal)) e

/-- A three-axis array whose entries are all real is the array of the table of those reals. -/
theorem exists_lift3 {a b c : ℕ} (x : FVec Ideal ⟨3, ![a, b, c]⟩ .f32) (h : ∀ i, ∃ r : ℝ, x i = ((r : ℝ) : EReal)) :
    ∃ T : Fin a → Fin b → Fin c → ℝ, x = lift3 T := by
  choose f hf using h
  refine ⟨fun p q r => f (ix3 p q r), funext fun i => ?_⟩
  have e : i = ix3 (⟨(i 0).val, idx3_lt0 i⟩ : Fin a) (⟨(i 1).val, idx3_lt1 i⟩ : Fin b) (⟨(i 2).val, idx3_lt2 i⟩ : Fin c) :=
    eq_ix3 i
  rw [hf i]
  exact congrArg (fun t => ((f t : ℝ) : EReal)) e

/-- Under the finiteness precondition the three inputs are the arrays of a real table and two real matrices. -/
theorem lifts_of_pre [Cert.Pre_finite_inputs.Facts]
    (x0 : FVec Ideal Cert.Pre_finite_inputs.S8x2048x2048 .f32) (x1 x2 : FVec Ideal Cert.Pre_finite_inputs.S2048x64 .f32)
    (h : Cert.Pre_finite_inputs.fn (F := Ideal) x0 x1 x2 = fun _ => 1#1) :
    ∃ (T : Fin 8 → Fin 2048 → Fin 2048 → ℝ) (U V : Matrix (Fin 2048) (Fin 64) ℝ),
      x0 = lift3 T ∧ x1 = lift U ∧ x2 = lift V := by
  obtain ⟨h0, h1, h2⟩ := Cert.Finite.real_of_pre x0 x1 x2 h
  obtain ⟨T, hT⟩ := exists_lift3 x0 h0
  obtain ⟨U, hU⟩ := exists_lift x1 h1
  obtain ⟨V, hV⟩ := exists_lift x2 h2
  exact ⟨T, U, V, hT, hU, hV⟩

/-! ## The identity between real tables -/

/-- Eight blocks of 2048 rows make 16384 rows. -/
theorem hn : 8 * 2048 = 16384 := rfl

/-- The low-rank update of the flattened table, unflattened, is the contraction of the table's last axis with the
    dense `W = (1 + A) X₄`: `x Wᵀ = x + ((x P) Eᵀ) Pᵀ` for every matrix `x` with 2048 columns, here the flattened table. -/
theorem joined (T : Fin 8 → Fin 2048 → Fin 2048 → ℝ) (U V : Matrix (Fin 2048) (Fin 64) ℝ) :
    unflat hn (flat hn T + ((flat hn T * hcat h64 U V) * (finalE Jmat ((hcat h64 U V)ᵀ * hcat h64 U V)
          (stepC Jmat ((hcat h64 U V)ᵀ * hcat h64 U V)
            (stepC Jmat ((hcat h64 U V)ᵀ * hcat h64 U V)
              (stepC Jmat ((hcat h64 U V)ᵀ * hcat h64 U V)
                (stepC Jmat ((hcat h64 U V)ᵀ * hcat h64 U V) 0)))))ᵀ) * (hcat h64 U V)ᵀ)
      = fun b s o => ∑ i : Fin 2048, T b s i * Cert.RefValue.Wof U V o i := by
  rw [← Cert.NS.main_UV U V (flat hn T), ← Cert.RefValue.Wof_eq U V]
  exact unflat_flat_mul hn T (Cert.RefValue.Wof U V)

/-- The same identity between the arrays of the two tables. -/
theorem joined_lift3 (T : Fin 8 → Fin 2048 → Fin 2048 → ℝ) (U V : Matrix (Fin 2048) (Fin 64) ℝ) :
    lift3 (unflat hn (flat hn T + ((flat hn T * hcat h64 U V) * (finalE Jmat ((hcat h64 U V)ᵀ * hcat h64 U V)
          (stepC Jmat ((hcat h64 U V)ᵀ * hcat h64 U V)
            (stepC Jmat ((hcat h64 U V)ᵀ * hcat h64 U V)
              (stepC Jmat ((hcat h64 U V)ᵀ * hcat h64 U V)
                (stepC Jmat ((hcat h64 U V)ᵀ * hcat h64 U V) 0)))))ᵀ) * (hcat h64 U V)ᵀ))
      = lift3 (fun b s o => ∑ i : Fin 2048, T b s i * Cert.RefValue.Wof U V o i) :=
  congrArg lift3 (joined T U V)

end Cert.Bridge

end
-- ==== Proof.lean ====
/-
  The two programs compute one function of real inputs. On every device the precondition makes the three inputs
  arrays of real numbers `x` (8 × 2048 × 2048), `U`, `V` (2048 × 64). The reference forms the dense skew matrix
  `A = U Vᵀ - V Uᵀ`, runs four Newton–Schulz steps `X ← X (2 I - (I - A) X)` from `X = I` on 2048 × 2048 matrices,
  takes `W = (I + A) X`, and returns `x Wᵀ` row by row. The kernel never forms a 2048 × 2048 matrix: with
  `P = [U | V]` and `J = [[0, I], [-I, 0]]` one has `A = P J Pᵀ`, every iterate is `I + P C Pᵀ` with `C` a 128 × 128
  matrix obeying `(I + P c₁ Pᵀ)(I + P c₂ Pᵀ) = I + P (c₁ + c₂ + c₁ (Pᵀ P) c₂) Pᵀ`, so `W = I + P E Pᵀ` and
  `x Wᵀ = x + ((x P) Eᵀ) Pᵀ`, which the launched body computes for 1024 rows at a time. Both results are arrays of
  real numbers, equal by that identity of real matrices; no infinity arises, so the extended reals' failing laws
  (distributivity, cancellation) are never asked for.
-/
import proofs.«158582_j69630009803034_2_alg».proof.Defs
import proofs.«158582_j69630009803034_2_alg».proof.Proof.Gen.Kernel
import proofs.«158582_j69630009803034_2_alg».proof.Proof.Gen.Kernel.Skeleton
import proofs.«158582_j69630009803034_2_alg».proof.Proof.Gen.Kernel.Launch
import proofs.«158582_j69630009803034_2_alg».proof.Proof.Gen.Kernel.Points
import proofs.«158582_j69630009803034_2_alg».proof.Proof.Gen.Kernel.Frame
import proofs.«158582_j69630009803034_2_alg».proof.Proof.Gen.KernelIdeal
import proofs.«158582_j69630009803034_2_alg».proof.Proof.Gen.KernelIdeal.Skeleton
import proofs.«158582_j69630009803034_2_alg».proof.Proof.Gen.KernelIdeal.Launch
import proofs.«158582_j69630009803034_2_alg».proof.Proof.Gen.KernelIdeal.Points
import proofs.«158582_j69630009803034_2_alg».proof.Proof.Gen.KernelIdeal.Frame
import proofs.«158582_j69630009803034_2_alg».proof.Proof.Gen.ReferenceIdeal
import proofs.«158582_j69630009803034_2_alg».proof.Proof.Gen.ReferenceIdeal.Run
import proofs.«158582_j69630009803034_2_alg».proof.Proof.Gen.ReferenceIdeal.Read
import proofs.«158582_j69630009803034_2_alg».proof.Proof.Gen.Pre_finite_inputs
import proofs.«158582_j69630009803034_2_alg».proof.Proof.KernelHost
import proofs.«158582_j69630009803034_2_alg».proof.Proof.KernelBlock
import proofs.«158582_j69630009803034_2_alg».proof.Proof.RefValue
import proofs.«158582_j69630009803034_2_alg».proof.Proof.Bridge
import Idealize.ShloMosaic.Adequacy
import Idealize.ShloMosaic.Init

noncomputable section

namespace Cert.Proof

open Idealize.ShloMosaic Idealize.SL.Sem

/-- The kernel's run with its result named: what the host line after the launch leaves in the result buffer, and
    the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v63)
            = Pipeline.afterTail₀ Cert.KernelIdeal.cfgs (Cert.KernelIdeal.Gen.dats m) 0 (Cert.KernelIdeal.Gen.V0 m) [Cert.KernelIdeal.Gen.hostOps1] c Cert.KernelIdeal.main_v63
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨(h c).2 Cert.KernelIdeal.main_v63 (Pipeline.mem_restRefs_of Cert.KernelIdeal.main_v63 (by decide) (by decide)),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c)⟩)
    (Cert.KernelIdeal.Gen.run_main m ρ)

/-- On one device, under the precondition and from agreeing arguments, the reference's result term is what the
    kernel leaves in its result buffer: both are the array of the real numbers `Σ_i x[b,s,i] · W[o,i]`. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v34 (F := Ideal) m' c = Pipeline.afterTail₀ Cert.KernelIdeal.cfgs (Cert.KernelIdeal.Gen.dats m) 0 (Cert.KernelIdeal.Gen.V0 m) [Cert.KernelIdeal.Gen.hostOps1] c Cert.KernelIdeal.main_v63 := by
  obtain ⟨T, U, V, e0, e1, e2⟩ := Cert.Bridge.lifts_of_pre _ _ _ hpre
  obtain ⟨r61, r0, r59, r60⟩ := Cert.KHost.handed m c U V T e0 e1 e2
  have a0 := h0.trans e0
  have a1 := h1.trans e1
  have a2 := h2.trans e2
  rw [Cert.ReferenceIdeal.Read.val_main_v34_eq, a0, a1, a2, Cert.RefValue.ref_result]
  refine Eq.trans ?_ (Cert.KBlock.result_array m c _ _ _ _ r61 r0 r59 r60).symm
  exact (Cert.Bridge.joined_lift3 T U V).symm

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs run, and end with the same result on every device. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v63, kernel_run m ρ, ?_⟩
  refine (θ_run Cert.ReferenceIdeal.defs _ _).mono (fun _ h c => ⟨(h c).1.trans ?_, (h c).2⟩) (Cert.ReferenceIdeal.Value.run (F := Ideal) m' ρ')
  exact results_agree m m' c (hpre c) (hagree c).1 (hagree c).2.1 (hagree c).2.2

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
